-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048x3 : Shape := ⟨3, ![8, 2048, 3]⟩
abbrev S8x2048 : Shape := ⟨2, ![8, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x2048x512 .f32) (main_arg1 : FVec F S8x2048x3 .f32) (main_arg2 : FVec F S8x2048 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S8x2048x512 : Shape := ⟨3, ![8, 2048, 512]⟩
abbrev S8x2048x3 : Shape := ⟨3, ![8, 2048, 3]⟩
abbrev S8x2048 : Shape := ⟨2, ![8, 2048]⟩
abbrev S8x2048x1 : Shape := ⟨3, ![8, 2048, 1]⟩
abbrev S128x1x128 : Shape := ⟨3, ![128, 1, 128]⟩
abbrev S1x128x512 : Shape := ⟨3, ![1, 128, 512]⟩
abbrev S1x2048x512 : Shape := ⟨3, ![1, 2048, 512]⟩
abbrev S1x128x3 : Shape := ⟨3, ![1, 128, 3]⟩
abbrev S1x2048x3 : Shape := ⟨3, ![1, 2048, 3]⟩
abbrev S1x128x1 : Shape := ⟨3, ![1, 128, 1]⟩
abbrev S1x2048x1 : Shape := ⟨3, ![1, 2048, 1]⟩
abbrev S1x1x128 : Shape := ⟨3, ![1, 1, 128]⟩
abbrev S128x512 : Shape := ⟨2, ![128, 512]⟩
abbrev S2048x512 : Shape := ⟨2, ![2048, 512]⟩
abbrev S128x3 : Shape := ⟨2, ![128, 3]⟩
abbrev S2048x3 : Shape := ⟨2, ![2048, 3]⟩
abbrev S128x1 : Shape := ⟨2, ![128, 1]⟩
abbrev S2048x1 : Shape := ⟨2, ![2048, 1]⟩
abbrev S128 : Shape := ⟨1, ![128]⟩
abbrev S2048 : Shape := ⟨1, ![2048]⟩
abbrev S128x2048 : Shape := ⟨2, ![128, 2048]⟩
abbrev S1x2048 : Shape := ⟨2, ![1, 2048]⟩
abbrev S1 : Shape := ⟨1, ![1]⟩
abbrev S1x1 : Shape := ⟨2, ![1, 1]⟩
abbrev S128x1x1 : Shape := ⟨3, ![128, 1, 1]⟩
abbrev S_ : Shape := ⟨0, ![]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S8x2048x3, .f32⟩
  | .hbm, ⟨2, _⟩ => ⟨S8x2048, .f32⟩
  | .hbm, ⟨3, _⟩ => ⟨S8x2048x1, .f32⟩
  | .hbm, ⟨4, _⟩ => ⟨S128x1x128, .f32⟩
  | .hbm, ⟨5, _⟩ => ⟨S128x1x1, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S128x1x1, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x128x512, .f32⟩
  | .local _ .vmem, ⟨1, _⟩ => ⟨S1x128x512, .f32⟩
  | .local _ .vmem, ⟨2, _⟩ => ⟨S1x2048x512, .f32⟩
  | .local _ .vmem, ⟨3, _⟩ => ⟨S1x2048x512, .f32⟩
  | .local _ .vmem, ⟨4, _⟩ => ⟨S1x128x3, .f32⟩
  | .local _ .vmem, ⟨5, _⟩ => ⟨S1x128x3, .f32⟩
  | .local _ .vmem, ⟨6, _⟩ => ⟨S1x2048x3, .f32⟩
  | .local _ .vmem, ⟨7, _⟩ => ⟨S1x2048x3, .f32⟩
  | .local _ .vmem, ⟨8, _⟩ => ⟨S1x128x1, .f32⟩
  | .local _ .vmem, ⟨9, _⟩ => ⟨S1x128x1, .f32⟩
  | .local _ .vmem, ⟨10, _⟩ => ⟨S1x2048x1, .f32⟩
  | .local _ .vmem, ⟨11, _⟩ => ⟨S1x2048x1, .f32⟩
  | .local _ .vmem, ⟨12, _⟩ => ⟨S1x1x128, .f32⟩
  | .local _ .vmem, ⟨13, _⟩ => ⟨S1x1x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S8x2048_S8x2048x1_0_1 : S8x2048.BroadcastsInDim S8x2048x1 (![0, 1] : Fin 2 → Fin S8x2048x1.rank)
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  reduces_S128x512_S128 : S128x512.Reduces [1] S128
  shapeCasts_S128_S128x1 : S128.ShapeCasts S128x1
  reduces_S2048x512_S2048 : S2048x512.Reduces [1] S2048
  shapeCasts_S2048_S2048x1 : S2048.ShapeCasts S2048x1
  broadcasts_S128x1_S128x512 : S128x1.Broadcasts S128x512
  broadcasts_S2048x1_S2048x512 : S2048x1.Broadcasts S2048x512
  bitsLt_bf16_f32 : FTy.bits .bf16 < FTy.bits .f32
  transposes_S2048x1_p1_0_S1x2048 : S2048x1.Transposes [1, 0] S1x2048
  broadcasts_S128x1_S128x2048 : S128x1.Broadcasts S128x2048
  broadcasts_S1x2048_S128x2048 : S1x2048.Broadcasts S128x2048
  natLt_1_32 : 1 < 32
  reduces_S128x3_S128 : S128x3.Reduces [1] S128
  reduces_S2048x3_S2048 : S2048x3.Reduces [1] S2048
  reduces_S128x2048_S128 : S128x2048.Reduces [1] S128
  reduces_S128x1_S1 : S128x1.Reduces [0] S1
  shapeCasts_S1_S1x1 : S1.ShapeCasts S1x1
  inpos_S1x1_p0_0 : ∀ a, (![0, 0] : Fin 2 → Nat) a < S1x1.size a
  iota_S1x1x128_d2_w32 : S1x1x128.Iotas .tc 32 [2]
  inb_S1x1x128_S1x1x128_0_0_0 : ∀ a, (![0, 0, 0] : Fin 3 → Nat) a + S1x1x128.size a ≤ S1x1x128.size a
  h_S1x1x128 : 0 < S1x1x128.numel
  slices_S128x1x128_S128x1x1_0_0_0 : S128x1x128.Slices ![0, 0, 0] S128x1x1
  shapeCasts_S128x1x1_S128 : S128x1x1.ShapeCasts S128
  reducesTo_S128_S_d0 : S128.ReducesTo [0] S_
  h_S_ : 0 < S_.numel
  slices_S128x1x128_S128x1x1_0_0_1 : S128x1x128.Slices ![0, 0, 1] S128x1x1
  dot_S128x512_S2048x512_S128x2048_1_1_0_0_n_n_wf : DotDims.WF S128x512 S2048x512 S128x2048 [1] [1] [0] [0] [] []
  dot_S128x3_S2048x3_S128x2048_1_1_0_0_n_n_wf : DotDims.WF S128x3 S2048x3 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x2048x512.size a
  hwx0_0 : ∀ i : grid0.Coords, EltTy.bits .f32 = 32 ∨ (Rect.block (s := S8x2048x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3.size a ≤ S8x2048x3.size a
  hwx0_2 : ∀ i : grid0.Coords, EltTy.bits .f32 = 32 ∨ (Rect.block (s := S8x2048x3) S1x128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x3.size a ≤ S8x2048x3.size a
  hwx0_3 : ∀ i : grid0.Coords, EltTy.bits .f32 = 32 ∨ (Rect.block (s := S8x2048x3) S1x2048x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S8x2048x1.size a
  hwx0_4 : ∀ i : grid0.Coords, EltTy.bits .f32 = 32 ∨ (Rect.block (s := S8x2048x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1.size a ≤ S8x2048x1.size a
  hwx0_5 : ∀ i : grid0.Coords, EltTy.bits .f32 = 32 ∨ (Rect.block (s := S8x2048x1) S1x2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S128x1x128.size a
  hwx0_6 : ∀ i : grid0.Coords, EltTy.bits .f32 = 32 ∨ (Rect.block (s := S128x1x128) S1x1x128.size (cc0_transform_6 i) (hinb0_6 i)).WholeWords (EltTy.packing .f32)

variable [Facts₀]

def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S128x3_S2048x3_S128x2048_1_1_0_0_n_n : DotDims S128x3 S2048x3 S128x2048 where
  lhsContracting := [1]
  rhsContracting := [1]
  lhsNonContracting := [0]
  rhsNonContracting := [0]
  lhsBatch := []
  rhsBatch := []
  wf := dot_S128x3_S2048x3_S128x2048_1_1_0_0_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x3 : Shape := ⟨3, ![8, 2048, 3]⟩
abbrev S8x2048 : Shape := ⟨2, ![8, 2048]⟩
abbrev S_ : Shape := ⟨0, ![]⟩
abbrev S8x2048x1 : Shape := ⟨3, ![8, 2048, 1]⟩
abbrev S8x1x2048 : Shape := ⟨3, ![8, 1, 2048]⟩
abbrev S8x2048x2048 : Shape := ⟨3, ![8, 2048, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x3, .f32⟩
  | .hbm, ⟨2, _⟩ => ⟨S8x2048, .f32⟩
  | .hbm, ⟨3, _⟩ => ⟨S8x2048x512, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x512, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .i1⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S8x2048x3, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x1x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048x2048, .f32⟩
  | .hbm, ⟨60, _⟩ => ⟨S8x2048x2048, .i1⟩
  | .hbm, ⟨61, _⟩ => ⟨S_, .f32⟩
  | .hbm, ⟨62, _⟩ => ⟨S_, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048x2048, .f32⟩
  | .hbm, ⟨68, _⟩ => ⟨S8x2048x2048, .i1⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048x2048, .f32⟩
  | .hbm, ⟨73, _⟩ => ⟨S8x2048x2048, .i1⟩
  | .hbm, ⟨74, _⟩ => ⟨S8x2048x2048, .f32⟩
  | .hbm, ⟨75, _⟩ => ⟨S_, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S8x1x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x3_S8x2048_d2 : S8x2048x3.ReducesTo [2] S8x2048
  reducesTo_S8x2048x2048_S_d0_1_2 : S8x2048x2048.ReducesTo [0, 1, 2] S_
  dot_S8x2048x512_S8x2048x512_S8x2048x2048_2_2_1_1_0_0_wf : DotDims.WF S8x2048x512 S8x2048x512 S8x2048x2048 [2] [2] [1] [1] [0] [0]
  dot_S8x2048x3_S8x2048x3_S8x2048x2048_2_2_1_1_0_0_wf : DotDims.WF S8x2048x3 S8x2048x3 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.TileDefK.lean ====
/-
  What one grid point stores into its output block, as one function of the six input blocks it loads:
  the query tile's and the key side's embedding rows, coordinate rows and mask entries.
-/
import proofs.«102639_j14474039787802_2_alg».proof.Proof.Gen.Kernel.Skeleton

noncomputable section

namespace Cert.Kernel.Tile

open Idealize.ShloMosaic Cert.Kernel Cert.Kernel.Gen

variable {F : FTy → Type} [FloatOps F]

/-- The stored vector [1,1,128] from the blocks: lane 0 the tile's summed pair losses, lane 1 its summed pair
    weights, the other lanes zero. -/
def tileOut (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) : FVec F S1x1x128 .f32 :=
  k0_pay1 (k0_pay4 x4) (k0_pay5 x5) (k0_pay10 (k0_pay7 x1) (k0_pay8 x0 x1) (k0_pay9 x0))
    (k0_pay12 (k0_pay2 x2) (k0_pay3 x3)) (k0_pay13 (k0_pay2 x2) (k0_pay3 x3))

end Cert.Kernel.Tile

end
-- ==== Proof.FrameAK.lean ====
/-
  One grid point of the pairwise-distance kernel as a separation-logic triple, and the pipeline's proof data.

  A point loads its six input blocks whole (the query tile's and the key side's embedding rows, coordinate rows and
  mask entries), and overwrites its output block [1,1,128] with one vector computed from them (Tile.tileOut).
  Each input window's staging buffer holds that window's block of its array at every point, fetched there or kept
  from the point before (the key-side windows change block only when the batch changes).
-/
import proofs.«102639_j14474039787802_2_alg».proof.Proof.Gen.Kernel.Launch
import proofs.«102639_j14474039787802_2_alg».proof.Proof.Gen.Kernel.Skeleton
import proofs.«102639_j14474039787802_2_alg».proof.Proof.Gen.Kernel.Points
import proofs.«102639_j14474039787802_2_alg».proof.Proof.TileDefK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before_in5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every block whole -/

abbrev r0 : Rect S1x128x512 := Rect.unit (s := S1x128x512) ![0, 0, 0] S1x128x512.size inb_S1x128x512_S1x128x512_0_0_0
abbrev r1 : Rect S1x2048x512 := Rect.unit (s := S1x2048x512) ![0, 0, 0] S1x2048x512.size inb_S1x2048x512_S1x2048x512_0_0_0
abbrev r2 : Rect S1x128x3 := Rect.unit (s := S1x128x3) ![0, 0, 0] S1x128x3.size inb_S1x128x3_S1x128x3_0_0_0
abbrev r3 : Rect S1x2048x3 := Rect.unit (s := S1x2048x3) ![0, 0, 0] S1x2048x3.size inb_S1x2048x3_S1x2048x3_0_0_0
abbrev r4 : Rect S1x128x1 := Rect.unit (s := S1x128x1) ![0, 0, 0] S1x128x1.size inb_S1x128x1_S1x128x1_0_0_0
abbrev r5 : Rect S1x2048x1 := Rect.unit (s := S1x2048x1) ![0, 0, 0] S1x2048x1.size inb_S1x2048x1_S1x2048x1_0_0_0
abbrev r6 : Rect S1x1x128 := Rect.unit (s := S1x1x128) ![0, 0, 0] S1x1x128.size inb_S1x1x128_S1x1x128_0_0_0

/-- The output block after the body: its one store, of the vector computed from the six loaded blocks. -/
def out6 (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) : Vec F S1x1x128 .f32 :=
  View.canon [⟨r6, Tile.tileOut (View.ld x0 r0) (View.ld x1 r1) (View.ld x2 r2) (View.ld x3 r3) (View.ld x4 r4) (View.ld x5 r5)⟩]

/-- The store covers the block. -/
theorem cover6 (p0 : Vec F S1x1x128 .f32) (y : S1x1x128.Idx) :
    ∃ pc ∈ ([⟨r6, p0⟩] : List (View.Piece (Elt F) S1x1x128 .f32)), y ∈ pc.1.set :=
  View.cover_of_tiled [⟨r6, p0⟩] S1x1x128.size (by rfl) y

set_option maxHeartbeats 4000000 in
/-- The kernel body on whole staging memrefs, the inputs' at contents x0 … x5 and the output's at anything, runs to
    the continuation holding the inputs' as they were and the output's at out6 of them. -/
theorem sound_kernel (c : Dev nD) (E : Set ℕ) (i : grid0.Coords)
    (arg2 : Memref sig .tc .vmem S1x128x512 .f32) (harg2 : arg2.IsWhole) (arg3 : Memref sig .tc .vmem S1x2048x512 .f32) (harg3 : arg3.IsWhole)
    (arg4 : Memref sig .tc .vmem S1x128x3 .f32) (harg4 : arg4.IsWhole) (arg5 : Memref sig .tc .vmem S1x2048x3 .f32) (harg5 : arg5.IsWhole)
    (arg6 : Memref sig .tc .vmem S1x128x1 .f32) (harg6 : arg6.IsWhole) (arg7 : Memref sig .tc .vmem S1x2048x1 .f32) (harg7 : arg7.IsWhole)
    (arg8 : Memref sig .tc .vmem S1x1x128 .f32) (harg8 : arg8.IsWhole)
    (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc0__distance_kernel i arg2 harg2 arg3 harg3 arg4 harg4 arg5 harg5 arg6 harg6 arg7 harg7 arg8 harg8) K := by
  simp only [cc0__distance_kernel_eq_skeleton]; unfold cc0__distance_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Region

end Cert.Kernel.Fr

end
-- ==== Proof.FrameBK.lean ====
/-
  The pipeline's proof data and the body obligation at every grid point.

  The arrays are the contents the region is entered with; after the body each input window's buffer still holds its
  block and the output's holds out6 of the six blocks.  Two windows read each input array (the query tile and the
  whole key side of one batch): each holds one half of the array's share, so that both may read it and neither
  may write it.
-/
import proofs.«102639_j14474039787802_2_alg».proof.Proof.FrameAK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk0 V c 0 t := by dsimp only [dat0]
theorem after_1 (c : Dev nD) (t : Fin cfg0.N) : (dat0 V c).after 1 t = iblk0 V c 1 t := by dsimp only [dat0]
theorem after_2 (c : Dev nD) (t : Fin cfg0.N) : (dat0 V c).after 2 t = iblk0 V c 2 t := by dsimp only [dat0]
theorem after_3 (c : Dev nD) (t : Fin cfg0.N) : (dat0 V c).after 3 t = iblk0 V c 3 t := by dsimp only [dat0]
theorem after_4 (c : Dev nD) (t : Fin cfg0.N) : (dat0 V c).after 4 t = iblk0 V c 4 t := by dsimp only [dat0]
theorem after_5 (c : Dev nD) (t : Fin cfg0.N) : (dat0 V c).after 5 t = iblk0 V c 5 t := by dsimp only [dat0]
theorem after_6 (c : Dev nD) (t : Fin cfg0.N) : (dat0 V c).after 6 t
    = out6 (iblk0 V c 0 t) (iblk0 V c 1 t) (iblk0 V c 2 t) (iblk0 V c 3 t) (iblk0 V c 4 t) (iblk0 V c 5 t) := by dsimp only [dat0]

theorem before_0 (c : Dev nD) (t : Fin cfg0.N) (d) : (dat0 V c).before 0 t d = iblk0 V c 0 t :=
  before_in0_of V (dat0 V c) (A_eq V c 0) (after_0 V c) t d
theorem before_1 (c : Dev nD) (t : Fin cfg0.N) (d) : (dat0 V c).before 1 t d = iblk0 V c 1 t :=
  before_in1_of V (dat0 V c) (A_eq V c 1) (after_1 V c) t d
theorem before_2 (c : Dev nD) (t : Fin cfg0.N) (d) : (dat0 V c).before 2 t d = iblk0 V c 2 t :=
  before_in2_of V (dat0 V c) (A_eq V c 2) (after_2 V c) t d
theorem before_3 (c : Dev nD) (t : Fin cfg0.N) (d) : (dat0 V c).before 3 t d = iblk0 V c 3 t :=
  before_in3_of V (dat0 V c) (A_eq V c 3) (after_3 V c) t d
theorem before_4 (c : Dev nD) (t : Fin cfg0.N) (d) : (dat0 V c).before 4 t d = iblk0 V c 4 t :=
  before_in4_of V (dat0 V c) (A_eq V c 4) (after_4 V c) t d
theorem before_5 (c : Dev nD) (t : Fin cfg0.N) (d) : (dat0 V c).before 5 t d = iblk0 V c 5 t :=
  before_in5_of V (dat0 V c) (A_eq V c 5) (after_5 V c) t d

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' memrefs hold their blocks, so the kernel's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.Kernel.Fr

end
-- ==== Proof.FrameCK.lean ====
/-
  The whole program as three segments — the host line that adds a unit axis to the mask, the pallas_call, the host
  lines that sum the per-tile partial sums and divide — and its run from the launch to the return.

  Buffer contents at the segment boundaries: W0 the launch memory, W1 after the first host line, W2 at the region's
  exit (the output array at what the write-backs leave, every other buffer as entered), W3 after the last host lines.
  Each input array is read by two windows; at the region's entry its full share is halved between them and at the
  exit the halves are joined again.
-/
import proofs.«102639_j14474039787802_2_alg».proof.Proof.FrameBK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays' shares dealt and collected -/

section Shares
variable (V' : (c : Dev nD) → (b : Ref sig .tc) → Buf (Elt F) ((c : Thread nD τ).loc b))

/-- The distinct buffers behind the seven windows. -/
theorem arr_image : Finset.univ.image (Pipeline.arrRef spec0) = {main_arg0, main_arg1, main_v0, main_v1} := by decide

theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold Pipeline.arrBufs
  rw [arr_image, bigSep_insert (by decide), bigSep_insert (by decide), bigSep_insert (by decide), BI.bigSep_singleton]
  rfl

/-- The proof data's arrays, window by window: the query-tile window of each input array at the left half of its
    share, the key-side window at the right half, the output array at the full share. -/
theorem arrays_eq' (c : Dev nD) (G : (w : Fin cfg0.W) → Buf (Elt F) ((cfg0.win w).arr.view.loc (c : Thread nD τ))) :
    ((dat0 V' c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare.left} G 4) ∗ (((c : Thread nD τ).loc main_v0) ↦{fullShare.right} G 5)
          ∗ (((c : Thread nD τ).loc main_v1) ↦{fullShare} G 6)) := by
  unfold Dat.arrays
  rw [bigSep_W0]
  rw [(arr_whole0 0).set_eq_univ, (arr_whole0 2).set_eq_univ, (arr_whole0 4).set_eq_univ, (arr_whole0 6).set_eq_univ]
  try rw [(arr_whole0 1).set_eq_univ]
  try rw [(arr_whole0 3).set_eq_univ]
  try rw [(arr_whole0 5).set_eq_univ]
  rfl

/-- ENTRY: the buffers behind the arrays, whole at contents V, are the proof data's arrays at any contents that
    read V at each window's array. -/
theorem arrays_of_bufs (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ (dat0 V' c).arrays G := by
  rw [arrBufs_eq, arrays_eq', hG 0, hG 1, hG 2, hG 3, hG 4, hG 5, hG 6]
  iintro ⟨H0, H1, H2, H3⟩
  ihave H0' := (pointsTo_share (PosShare.mem_left_op_right fullShare)).1 $$ H0
  ihave H1' := (pointsTo_share (PosShare.mem_left_op_right fullShare)).1 $$ H1
  ihave H2' := (pointsTo_share (PosShare.mem_left_op_right fullShare)).1 $$ H2
  icases H0' with ⟨H0l, H0r⟩
  icases H1' with ⟨H1l, H1r⟩
  icases H2' with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  iexact H3

/-- EXIT: the converse. -/
theorem bufs_of_arrays (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((dat0 V' c).arrays G : sProp 𝕄) ⊢ Pipeline.arrBufs (Ix := Unit) (Name := ℕ) (U := UR sig nD τ) (Lvl := ℕ) spec0 c V := by
  rw [arrBufs_eq, arrays_eq', hG 0, hG 1, hG 2, hG 3, hG 4, hG 5, hG 6]
  iintro ⟨H0l, H0r, H1l, H1r, H2l, H2r, H3⟩
  isplitl [H0l H0r]
  · iapply (pointsTo_share (PosShare.mem_left_op_right fullShare)).2; isplitl [H0l]; · iexact H0l
    iexact H0r
  isplitl [H1l H1r]
  · iapply (pointsTo_share (PosShare.mem_left_op_right fullShare)).2; isplitl [H1l]; · iexact H1l
    iexact H1r
  isplitl [H2l H2r]
  · iapply (pointsTo_share (PosShare.mem_left_op_right fullShare)).2; isplitl [H2l]; · iexact H2l
    iexact H2r
  iexact H3

end Shares

end Cert.Kernel.Fr

end
-- ==== Proof.FrameDK.lean ====
/-
  The run of the whole program: the launch over the three segments, and what the final memory holds — the result
  buffer at the last host lines' fold over the region's exit contents, the three argument arrays as launched.
-/
import proofs.«102639_j14474039787802_2_alg».proof.Proof.FrameCK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host line (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) := fun b =>
  if h : Proc.devRef .tc main_v1 = b then cast (congrArg (fun b' : DevRef τ sig => b'.ty.Contents (Elt F)) h) ((dat0 (V1 m ρ) c).arrAt 6 cfg0.N)
  else W1 m ρ c b
theorem W2_out (c : Dev nD) : W2 m ρ c (Proc.devRef .tc main_v1) = (dat0 (V1 m ρ) c).arrAt 6 cfg0.N := by
  unfold W2; rw [dif_pos rfl]; rfl
theorem W2_of_ne (c : Dev nD) (b : Ref sig .tc) (hb : main_v1 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the last host lines. -/
abbrev W3 : Dev nD → Valuation τ sig (Elt F) := fun c => StableHlo.after hostOps1 (W2 m ρ c)

/-- At the exit every window's array holds what the pipeline leaves: an input its entry contents, the output its write-backs. -/
theorem hF (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq (V1 m ρ) c 0)).trans (W2_of_ne m ρ c _ (by decide)).symm
  | ⟨1, _⟩ => exact (((dat0 (V1 m ρ) c).arrAt_in 1 rfl _).trans (A_eq (V1 m ρ) c 1)).trans (W2_of_ne m ρ c _ (by decide)).symm
  | ⟨2, _⟩ => exact (((dat0 (V1 m ρ) c).arrAt_in 2 rfl _).trans (A_eq (V1 m ρ) c 2)).trans (W2_of_ne m ρ c _ (by decide)).symm
  | ⟨3, _⟩ => exact (((dat0 (V1 m ρ) c).arrAt_in 3 rfl _).trans (A_eq (V1 m ρ) c 3)).trans (W2_of_ne m ρ c _ (by decide)).symm
  | ⟨4, _⟩ => exact (((dat0 (V1 m ρ) c).arrAt_in 4 rfl _).trans (A_eq (V1 m ρ) c 4)).trans (W2_of_ne m ρ c _ (by decide)).symm
  | ⟨5, _⟩ => exact (((dat0 (V1 m ρ) c).arrAt_in 5 rfl _).trans (A_eq (V1 m ρ) c 5)).trans (W2_of_ne m ρ c _ (by decide)).symm
  | ⟨6, _⟩ => exact (W2_out m ρ c).symm
theorem hrest (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ### The arguments end as launched -/

theorem hostOps1_keeps (c : Dev nD) (b : Ref sig .tc) (hb : b = main_arg0 ∨ b = main_arg1 ∨ b = main_arg2) (X : Valuation τ sig (Elt F)) :
    StableHlo.after (hostOps1 (F := F)) X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    rcases hb with rfl | rfl | rfl <;> (repeat' apply And.intro) <;> exact StableHlo.devRef_ne_of_ne (by decide)))
theorem hostOps0_keeps (c : Dev nD) (b : Ref sig .tc) (hb : b = main_arg0 ∨ b = main_arg1 ∨ b = main_arg2) (X : Valuation τ sig (Elt F)) :
    StableHlo.after (hostOps0 (F := F)) X (Proc.devRef .tc b) = X (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    rcases hb with rfl | rfl | rfl <;> exact StableHlo.devRef_ne_of_ne (by decide)))

theorem W3_arg (c : Dev nD) (b : Ref sig .tc) (hb : b = main_arg0 ∨ b = main_arg1 ∨ b = main_arg2) :
    W3 m ρ c (Proc.devRef .tc b) = m ((c : Thread nD τ).loc b) :=
  calc W3 m ρ c (Proc.devRef .tc b)
    _ = W2 m ρ c (Proc.devRef .tc b) := hostOps1_keeps c b hb _
    _ = W1 m ρ c (Proc.devRef .tc b) := W2_of_ne m ρ c b (by rcases hb with rfl | rfl | rfl <;> decide)
    _ = W0 m ρ c (Proc.devRef .tc b) := hostOps0_keeps c b hb _
    _ = m ((c : Thread nD τ).loc b) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The pallas_call over the thread state: entered from every unscoped buffer at W1, left at W2. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_bufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c)) ⊢ (unscopedBufs c (V2 m ρ c) : sProp 𝕄) := by
      rw [Pipeline.unscopedBufs_split₀ cfgs 0 winFacts₀0.arr_unscoped c (V2 m ρ c)]
      refine sep_mono (bufs_of_arrays (V1 m ρ) c (V2 m ρ c) _ (fun w => hF m ρ c w)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory has every unscoped buffer at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg m ρ c main_arg0 (.inl rfl)),
     (h c _ (mem_uc main_arg1 (by decide))).trans (W3_arg m ρ c main_arg1 (.inr (.inl rfl))),
     (h c _ (mem_uc main_arg2 (by decide))).trans (W3_arg m ρ c main_arg2 (.inr (.inr rfl)))⟩) (run_all m ρ)

end Cert.Kernel.Fr

end
-- ==== Proof.TileDefI.lean ====
/-
  What one grid point stores into its output block, as one function of the six input blocks it loads:
  the query tile's and the key side's embedding rows, coordinate rows and mask entries.
-/
import proofs.«102639_j14474039787802_2_alg».proof.Proof.Gen.KernelIdeal.Skeleton

noncomputable section

namespace Cert.KernelIdeal.Tile

open Idealize.ShloMosaic Cert.KernelIdeal Cert.KernelIdeal.Gen

variable {F : FTy → Type} [FloatOps F]

/-- The stored vector [1,1,128] from the blocks: lane 0 the tile's summed pair losses, lane 1 its summed pair
    weights, the other lanes zero. -/
def tileOut (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) : FVec F S1x1x128 .f32 :=
  k0_pay1 (k0_pay4 x4) (k0_pay5 x5) (k0_pay10 (k0_pay7 x1) (k0_pay8 x0 x1) (k0_pay9 x0))
    (k0_pay12 (k0_pay2 x2) (k0_pay3 x3)) (k0_pay13 (k0_pay2 x2) (k0_pay3 x3))

end Cert.KernelIdeal.Tile

end
-- ==== Proof.FrameAI.lean ====
/-
  One grid point of the pairwise-distance kernel as a separation-logic triple, and the pipeline's proof data.

  A point loads its six input blocks whole (the query tile's and the key side's embedding rows, coordinate rows and
  mask entries), and overwrites its output block [1,1,128] with one vector computed from them (Tile.tileOut).
  Each input window's staging buffer holds that window's block of its array at every point, fetched there or kept
  from the point before (the key-side windows change block only when the batch changes).
-/
import proofs.«102639_j14474039787802_2_alg».proof.Proof.Gen.KernelIdeal.Launch
import proofs.«102639_j14474039787802_2_alg».proof.Proof.Gen.KernelIdeal.Skeleton
import proofs.«102639_j14474039787802_2_alg».proof.Proof.Gen.KernelIdeal.Points
import proofs.«102639_j14474039787802_2_alg».proof.Proof.TileDefI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before_in4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before_in5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every block whole -/

abbrev r0 : Rect S1x128x512 := Rect.unit (s := S1x128x512) ![0, 0, 0] S1x128x512.size inb_S1x128x512_S1x128x512_0_0_0
abbrev r1 : Rect S1x2048x512 := Rect.unit (s := S1x2048x512) ![0, 0, 0] S1x2048x512.size inb_S1x2048x512_S1x2048x512_0_0_0
abbrev r2 : Rect S1x128x3 := Rect.unit (s := S1x128x3) ![0, 0, 0] S1x128x3.size inb_S1x128x3_S1x128x3_0_0_0
abbrev r3 : Rect S1x2048x3 := Rect.unit (s := S1x2048x3) ![0, 0, 0] S1x2048x3.size inb_S1x2048x3_S1x2048x3_0_0_0
abbrev r4 : Rect S1x128x1 := Rect.unit (s := S1x128x1) ![0, 0, 0] S1x128x1.size inb_S1x128x1_S1x128x1_0_0_0
abbrev r5 : Rect S1x2048x1 := Rect.unit (s := S1x2048x1) ![0, 0, 0] S1x2048x1.size inb_S1x2048x1_S1x2048x1_0_0_0
abbrev r6 : Rect S1x1x128 := Rect.unit (s := S1x1x128) ![0, 0, 0] S1x1x128.size inb_S1x1x128_S1x1x128_0_0_0

/-- The output block after the body: its one store, of the vector computed from the six loaded blocks. -/
def out6 (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) : Vec F S1x1x128 .f32 :=
  View.canon [⟨r6, Tile.tileOut (View.ld x0 r0) (View.ld x1 r1) (View.ld x2 r2) (View.ld x3 r3) (View.ld x4 r4) (View.ld x5 r5)⟩]

/-- The store covers the block. -/
theorem cover6 (p0 : Vec F S1x1x128 .f32) (y : S1x1x128.Idx) :
    ∃ pc ∈ ([⟨r6, p0⟩] : List (View.Piece (Elt F) S1x1x128 .f32)), y ∈ pc.1.set :=
  View.cover_of_tiled [⟨r6, p0⟩] S1x1x128.size (by rfl) y

set_option maxHeartbeats 4000000 in
/-- The kernel body on whole staging memrefs, the inputs' at contents x0 … x5 and the output's at anything, runs to
    the continuation holding the inputs' as they were and the output's at out6 of them. -/
theorem sound_kernel (c : Dev nD) (E : Set ℕ) (i : grid0.Coords)
    (arg2 : Memref sig .tc .vmem S1x128x512 .f32) (harg2 : arg2.IsWhole) (arg3 : Memref sig .tc .vmem S1x2048x512 .f32) (harg3 : arg3.IsWhole)
    (arg4 : Memref sig .tc .vmem S1x128x3 .f32) (harg4 : arg4.IsWhole) (arg5 : Memref sig .tc .vmem S1x2048x3 .f32) (harg5 : arg5.IsWhole)
    (arg6 : Memref sig .tc .vmem S1x128x1 .f32) (harg6 : arg6.IsWhole) (arg7 : Memref sig .tc .vmem S1x2048x1 .f32) (harg7 : arg7.IsWhole)
    (arg8 : Memref sig .tc .vmem S1x1x128 .f32) (harg8 : arg8.IsWhole)
    (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E (cc0__distance_kernel i arg2 harg2 arg3 harg3 arg4 harg4 arg5 harg5 arg6 harg6 arg7 harg7 arg8 harg8) K := by
  simp only [cc0__distance_kernel_eq_skeleton]; unfold cc0__distance_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

end Region

end Cert.KernelIdeal.Fr

end
-- ==== Proof.FrameBI.lean ====
/-
  The pipeline's proof data and the body obligation at every grid point.

  The arrays are the contents the region is entered with; after the body each input window's buffer still holds its
  block and the output's holds out6 of the six blocks.  Two windows read each input array (the query tile and the
  whole key side of one batch): each holds one half of the array's share, so that both may read it and neither
  may write it.
-/
import proofs.«102639_j14474039787802_2_alg».proof.Proof.FrameAI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- The proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk0 V c 0 t := by dsimp only [dat0]
theorem after_1 (c : Dev nD) (t : Fin cfg0.N) : (dat0 V c).after 1 t = iblk0 V c 1 t := by dsimp only [dat0]
theorem after_2 (c : Dev nD) (t : Fin cfg0.N) : (dat0 V c).after 2 t = iblk0 V c 2 t := by dsimp only [dat0]
theorem after_3 (c : Dev nD) (t : Fin cfg0.N) : (dat0 V c).after 3 t = iblk0 V c 3 t := by dsimp only [dat0]
theorem after_4 (c : Dev nD) (t : Fin cfg0.N) : (dat0 V c).after 4 t = iblk0 V c 4 t := by dsimp only [dat0]
theorem after_5 (c : Dev nD) (t : Fin cfg0.N) : (dat0 V c).after 5 t = iblk0 V c 5 t := by dsimp only [dat0]
theorem after_6 (c : Dev nD) (t : Fin cfg0.N) : (dat0 V c).after 6 t
    = out6 (iblk0 V c 0 t) (iblk0 V c 1 t) (iblk0 V c 2 t) (iblk0 V c 3 t) (iblk0 V c 4 t) (iblk0 V c 5 t) := by dsimp only [dat0]

theorem before_0 (c : Dev nD) (t : Fin cfg0.N) (d) : (dat0 V c).before 0 t d = iblk0 V c 0 t :=
  before_in0_of V (dat0 V c) (A_eq V c 0) (after_0 V c) t d
theorem before_1 (c : Dev nD) (t : Fin cfg0.N) (d) : (dat0 V c).before 1 t d = iblk0 V c 1 t :=
  before_in1_of V (dat0 V c) (A_eq V c 1) (after_1 V c) t d
theorem before_2 (c : Dev nD) (t : Fin cfg0.N) (d) : (dat0 V c).before 2 t d = iblk0 V c 2 t :=
  before_in2_of V (dat0 V c) (A_eq V c 2) (after_2 V c) t d
theorem before_3 (c : Dev nD) (t : Fin cfg0.N) (d) : (dat0 V c).before 3 t d = iblk0 V c 3 t :=
  before_in3_of V (dat0 V c) (A_eq V c 3) (after_3 V c) t d
theorem before_4 (c : Dev nD) (t : Fin cfg0.N) (d) : (dat0 V c).before 4 t d = iblk0 V c 4 t :=
  before_in4_of V (dat0 V c) (A_eq V c 4) (after_4 V c) t d
theorem before_5 (c : Dev nD) (t : Fin cfg0.N) (d) : (dat0 V c).before 5 t d = iblk0 V c 5 t :=
  before_in5_of V (dat0 V c) (A_eq V c 5) (after_5 V c) t d

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' memrefs hold their blocks, so the kernel's triple applies; the invariant and
    the core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.KernelIdeal.Fr

end
-- ==== Proof.FrameCI.lean ====
/-
  The whole program as three segments — the host line that adds a unit axis to the mask, the pallas_call, the host
  lines that sum the per-tile partial sums and divide — and its run from the launch to the return.

  Buffer contents at the segment boundaries: W0 the launch memory, W1 after the first host line, W2 at the region's
  exit (the output array at what the write-backs leave, every other buffer as entered), W3 after the last host lines.
  Each input array is read by two windows; at the region's entry its full share is halved between them and at the
  exit the halves are joined again.
-/
import proofs.«102639_j14474039787802_2_alg».proof.Proof.FrameBI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays' shares dealt and collected -/

section Shares
variable (V' : (c : Dev nD) → (b : Ref sig .tc) → Buf (Elt F) ((c : Thread nD τ).loc b))

/-- The distinct buffers behind the seven windows. -/
theorem arr_image : Finset.univ.image (Pipeline.arrRef spec0) = {main_arg0, main_arg1, main_v0, main_v1} := by decide

theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold Pipeline.arrBufs
  rw [arr_image, bigSep_insert (by decide), bigSep_insert (by decide), bigSep_insert (by decide), BI.bigSep_singleton]
  rfl

/-- The proof data's arrays, window by window: the query-tile window of each input array at the left half of its
    share, the key-side window at the right half, the output array at the full share. -/
theorem arrays_eq' (c : Dev nD) (G : (w : Fin cfg0.W) → Buf (Elt F) ((cfg0.win w).arr.view.loc (c : Thread nD τ))) :
    ((dat0 V' c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare.left} G 4) ∗ (((c : Thread nD τ).loc main_v0) ↦{fullShare.right} G 5)
          ∗ (((c : Thread nD τ).loc main_v1) ↦{fullShare} G 6)) := by
  unfold Dat.arrays
  rw [bigSep_W0]
  rw [(arr_whole0 0).set_eq_univ, (arr_whole0 2).set_eq_univ, (arr_whole0 4).set_eq_univ, (arr_whole0 6).set_eq_univ]
  try rw [(arr_whole0 1).set_eq_univ]
  try rw [(arr_whole0 3).set_eq_univ]
  try rw [(arr_whole0 5).set_eq_univ]
  rfl

/-- ENTRY: the buffers behind the arrays, whole at contents V, are the proof data's arrays at any contents that
    read V at each window's array. -/
theorem arrays_of_bufs (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (Pipeline.arrBufs (Ix := Unit) (Name := ℕ) (U := UR sig nD τ) (Lvl := ℕ) spec0 c V : sProp 𝕄) ⊢ (dat0 V' c).arrays G := by
  rw [arrBufs_eq, arrays_eq', hG 0, hG 1, hG 2, hG 3, hG 4, hG 5, hG 6]
  iintro ⟨H0, H1, H2, H3⟩
  ihave H0' := (pointsTo_share (PosShare.mem_left_op_right fullShare)).1 $$ H0
  ihave H1' := (pointsTo_share (PosShare.mem_left_op_right fullShare)).1 $$ H1
  ihave H2' := (pointsTo_share (PosShare.mem_left_op_right fullShare)).1 $$ H2
  icases H0' with ⟨H0l, H0r⟩
  icases H1' with ⟨H1l, H1r⟩
  icases H2' with ⟨H2l, H2r⟩
  isplitl [H0l]; · iexact H0l
  isplitl [H0r]; · iexact H0r
  isplitl [H1l]; · iexact H1l
  isplitl [H1r]; · iexact H1r
  isplitl [H2l]; · iexact H2l
  isplitl [H2r]; · iexact H2r
  iexact H3

/-- EXIT: the converse. -/
theorem bufs_of_arrays (c : Dev nD) (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    ((dat0 V' c).arrays G : sProp 𝕄) ⊢ Pipeline.arrBufs (Ix := Unit) (Name := ℕ) (U := UR sig nD τ) (Lvl := ℕ) spec0 c V := by
  rw [arrBufs_eq, arrays_eq', hG 0, hG 1, hG 2, hG 3, hG 4, hG 5, hG 6]
  iintro ⟨H0l, H0r, H1l, H1r, H2l, H2r, H3⟩
  isplitl [H0l H0r]
  · iapply (pointsTo_share (PosShare.mem_left_op_right fullShare)).2; isplitl [H0l]; · iexact H0l
    iexact H0r
  isplitl [H1l H1r]
  · iapply (pointsTo_share (PosShare.mem_left_op_right fullShare)).2; isplitl [H1l]; · iexact H1l
    iexact H1r
  isplitl [H2l H2r]
  · iapply (pointsTo_share (PosShare.mem_left_op_right fullShare)).2; isplitl [H2l]; · iexact H2l
    iexact H2r
  iexact H3

end Shares

end Cert.KernelIdeal.Fr

end
-- ==== Proof.FrameDI.lean ====
/-
  The run of the whole program: the launch over the three segments, and what the final memory holds — the result
  buffer at the last host lines' fold over the region's exit contents, the three argument arrays as launched.
-/
import proofs.«102639_j14474039787802_2_alg».proof.Proof.FrameCI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host line (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) := fun b =>
  if h : Proc.devRef .tc main_v1 = b then cast (congrArg (fun b' : DevRef τ sig => b'.ty.Contents (Elt F)) h) ((dat0 (V1 m ρ) c).arrAt 6 cfg0.N)
  else W1 m ρ c b
theorem W2_out (c : Dev nD) : W2 m ρ c (Proc.devRef .tc main_v1) = (dat0 (V1 m ρ) c).arrAt 6 cfg0.N := by
  unfold W2; rw [dif_pos rfl]; rfl
theorem W2_of_ne (c : Dev nD) (b : Ref sig .tc) (hb : main_v1 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the last host lines. -/
abbrev W3 : Dev nD → Valuation τ sig (Elt F) := fun c => StableHlo.after hostOps1 (W2 m ρ c)

/-- At the exit every window's array holds what the pipeline leaves: an input its entry contents, the output its write-backs. -/
theorem hF (c : Dev nD) (w : Fin cfg0.W) : (dat0 (V1 m ρ) c).arrAt w cfg0.N = V2 m ρ c (Pipeline.arrRef spec0 w) := by
  match w with
  | ⟨0, _⟩ => exact (((dat0 (V1 m ρ) c).arrAt_in 0 rfl _).trans (A_eq (V1 m ρ) c 0)).trans (W2_of_ne m ρ c _ (by decide)).symm
  | ⟨1, _⟩ => exact (((dat0 (V1 m ρ) c).arrAt_in 1 rfl _).trans (A_eq (V1 m ρ) c 1)).trans (W2_of_ne m ρ c _ (by decide)).symm
  | ⟨2, _⟩ => exact (((dat0 (V1 m ρ) c).arrAt_in 2 rfl _).trans (A_eq (V1 m ρ) c 2)).trans (W2_of_ne m ρ c _ (by decide)).symm
  | ⟨3, _⟩ => exact (((dat0 (V1 m ρ) c).arrAt_in 3 rfl _).trans (A_eq (V1 m ρ) c 3)).trans (W2_of_ne m ρ c _ (by decide)).symm
  | ⟨4, _⟩ => exact (((dat0 (V1 m ρ) c).arrAt_in 4 rfl _).trans (A_eq (V1 m ρ) c 4)).trans (W2_of_ne m ρ c _ (by decide)).symm
  | ⟨5, _⟩ => exact (((dat0 (V1 m ρ) c).arrAt_in 5 rfl _).trans (A_eq (V1 m ρ) c 5)).trans (W2_of_ne m ρ c _ (by decide)).symm
  | ⟨6, _⟩ => exact (W2_out m ρ c).symm
theorem hrest (c : Dev nD) : ∀ b, b ∉ Finset.univ.image (Pipeline.arrRef spec0) → V2 m ρ c b = V1 m ρ c b :=
  fun b hb => W2_of_ne m ρ c b fun e => hb (Finset.mem_image.mpr ⟨6, Finset.mem_univ _, e⟩)

/-! ### The arguments end as launched -/

theorem hostOps1_keeps (c : Dev nD) (b : Ref sig .tc) (hb : b = main_arg0 ∨ b = main_arg1 ∨ b = main_arg2) (X : Valuation τ sig (Elt F)) :
    StableHlo.after (hostOps1 (F := F)) X (Proc.devRef .tc b) = X (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    rcases hb with rfl | rfl | rfl <;> (repeat' apply And.intro) <;> exact StableHlo.devRef_ne_of_ne (by decide)))
theorem hostOps0_keeps (c : Dev nD) (b : Ref sig .tc) (hb : b = main_arg0 ∨ b = main_arg1 ∨ b = main_arg2) (X : Valuation τ sig (Elt F)) :
    StableHlo.after (hostOps0 (F := F)) X (Proc.devRef .tc b) = X (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, Finset.mem_singleton]
    rcases hb with rfl | rfl | rfl <;> exact StableHlo.devRef_ne_of_ne (by decide)))

theorem W3_arg (c : Dev nD) (b : Ref sig .tc) (hb : b = main_arg0 ∨ b = main_arg1 ∨ b = main_arg2) :
    W3 m ρ c (Proc.devRef .tc b) = m ((c : Thread nD τ).loc b) :=
  calc W3 m ρ c (Proc.devRef .tc b)
    _ = W2 m ρ c (Proc.devRef .tc b) := hostOps1_keeps c b hb _
    _ = W1 m ρ c (Proc.devRef .tc b) := W2_of_ne m ρ c b (by rcases hb with rfl | rfl | rfl <;> decide)
    _ = W0 m ρ c (Proc.devRef .tc b) := hostOps0_keeps c b hb _
    _ = m ((c : Thread nD τ).loc b) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The pallas_call over the thread state: entered from every unscoped buffer at W1, left at W2. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄) ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_bufs (V1 m ρ) c (V1 m ρ c) _ (fun w => A_eq (V1 m ρ) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c)) ⊢ (unscopedBufs c (V2 m ρ c) : sProp 𝕄) := by
      rw [Pipeline.unscopedBufs_split₀ cfgs 0 winFacts₀0.arr_unscoped c (V2 m ρ c)]
      refine sep_mono (bufs_of_arrays (V1 m ρ) c (V2 m ρ c) _ (fun w => hF m ρ c w)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory has every unscoped buffer at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg m ρ c main_arg0 (.inl rfl)),
     (h c _ (mem_uc main_arg1 (by decide))).trans (W3_arg m ρ c main_arg1 (.inr (.inl rfl))),
     (h c _ (mem_uc main_arg2 (by decide))).trans (W3_arg m ρ c main_arg2 (.inr (.inr rfl)))⟩) (run_all m ρ)

end Cert.KernelIdeal.Fr

end
-- ==== Proof.EntryI.lean ====
/-
  What the pallas_call finds in its windows' arrays: the two argument arrays it reads as launched, and the mask
  with a unit axis appended by the one host line before it.
-/
import proofs.«102639_j14474039787802_2_alg».proof.Proof.FrameDI
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-- The embeddings reach the region as launched. -/
theorem V1_arg0 (c : Dev nD) : V1 m ρ c main_arg0 = m ((c : Thread nD τ).loc main_arg0) :=
  hostOps0_keeps c main_arg0 (.inl rfl) _
/-- The coordinates reach the region as launched. -/
theorem V1_arg1 (c : Dev nD) : V1 m ρ c main_arg1 = m ((c : Thread nD τ).loc main_arg1) :=
  hostOps0_keeps c main_arg1 (.inr (.inl rfl)) _
/-- The mask reaches the region with a unit last axis. -/
theorem V1_v0 (c : Dev nD) : (V1 m ρ c main_v0 : S8x2048x1.Idx → Elt F .f32)
    = broadcastInDim S8x2048x1 ![0, 1] bcast_S8x2048_S8x2048x1_0_1 (m ((c : Thread nD τ).loc main_arg2)) := by
  show StableHlo.after hostOps0 _ (Proc.devRef .tc main_v0) = _
  after_results <;> rfl
theorem V1_v0_apply (c : Dev nD) (b : Fin 8) (n : Fin 2048) :
    V1 m ρ c main_v0 (ix3 b n (0 : Fin 1)) = m ((c : Thread nD τ).loc main_arg2) (ix2 b n) := by
  rw [V1_v0]
  exact broadcastInDim_apply _ _ _ _ _ (fun a => by match a with | ⟨0, _⟩ => rfl | ⟨1, _⟩ => rfl)

end Cert.KernelIdeal.Fr

end
-- ==== Proof.OutI.lean ====
/-
  The output array after the grid, and the six input blocks of a grid point read at an index.

  Grid point t (of 128) stores its vector into row t of the output array [128, 1, 128]: the output window's block
  index at point t is (t, 0, 0), the blocks are pairwise disjoint and cover the array, so after the run row t holds
  what point t computed from its six input blocks.  The query-side blocks of point t are rows (t mod 16)·128 … +127
  of batch t / 16 of their arrays, the key-side blocks are the whole of batch t / 16.
-/
import proofs.«102639_j14474039787802_2_alg».proof.Proof.FrameBI
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Region
variable (V : (c : Dev nD) → (b : Ref sig .tc) → Buf (Elt F) ((c : Thread nD τ).loc b))

theorem hz3 : (![0, 0, 0] : Fin 3 → Nat) = fun _ => 0 := funext fun a => by fin_cases a <;> rfl

/-- The output block after the body is the computed vector: the one store covers the block and the loads are whole. -/
theorem out6_eq (x0 : Vec F S1x128x512 .f32) (x1 : Vec F S1x2048x512 .f32) (x2 : Vec F S1x128x3 .f32)
    (x3 : Vec F S1x2048x3 .f32) (x4 : Vec F S1x128x1 .f32) (x5 : Vec F S1x2048x1 .f32) :
    out6 x0 x1 x2 x3 x4 x5 = Tile.tileOut x0 x1 x2 x3 x4 x5 := by
  unfold out6
  rw [View.canon_unit_zero hz3]
  simp only [View.ld_unit_zero (S := S1x128x512) hz3, View.ld_unit_zero (S := S1x2048x512) hz3,
    View.ld_unit_zero (S := S1x128x3) hz3, View.ld_unit_zero (S := S1x2048x3) hz3,
    View.ld_unit_zero (S := S1x128x1) hz3, View.ld_unit_zero (S := S1x2048x1) hz3]

/-- The output window's block index at point t is (t, 0, 0), decided over the grid. -/
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, win0_6.index t (0 : Fin 3) = t.val ∧ win0_6.index t (1 : Fin 3) = 0
    ∧ win0_6.index t (2 : Fin 3) = 0)

theorem lt_N (i : S128x1x128.Idx) : (i 0).val < cfg0.N := by
  have h : cfg0.N = 128 := N_0
  rw [h]; exact (i 0).isLt

/-- The grid point that stores row i₀ of the output array. -/
def tOf (i : S128x1x128.Idx) : Fin cfg0.N := ⟨(i 0).val, lt_N i⟩

/-- The output array after the run: row t, lane l is lane l of what point t computed from its six blocks. -/
def Gout (c : Dev nD) : Buf (Elt F) ((cfg0.win 6).arr.view.loc (c : Thread nD τ)) := fun (i : S128x1x128.Idx) =>
  Tile.tileOut (iblk0 V c 0 (tOf i)) (iblk0 V c 1 (tOf i)) (iblk0 V c 2 (tOf i)) (iblk0 V c 3 (tOf i)) (iblk0 V c 4 (tOf i)) (iblk0 V c 5 (tOf i))
    (ix3 (0 : Fin 1) (0 : Fin 1) (⟨(i 2).val, (i 2).isLt⟩ : Fin 128))

/-- What point t writes back is block t of Gout. -/
theorem flushed6_eq (c : Dev nD) (t : Fin cfg0.N) :
    (dat0 V c).flushed 6 t = ((cfg0.win 6).blk t).view.read (Elt F) (Gout V c) := by
  show (cfg0.win 6).cut (grid0.coords t) ((dat0 V c).after 6 t) = _
  rw [after_6, out6_eq]
  obtain ⟨e0, e1, e2⟩ := idx6 t
  funext j
  show Tile.tileOut (iblk0 V c 0 t) (iblk0 V c 1 t) (iblk0 V c 2 t) (iblk0 V c 3 t) (iblk0 V c 4 t) (iblk0 V c 5 t) j = Gout V c (((cfg0.win 6).blk t).view.emb j)
  have hj0 : (j 0).val < 1 := (j 0).isLt
  have hj1 : (j 1).val < 1 := (j 1).isLt
  have ht : tOf (((cfg0.win 6).blk t).view.emb j) = t := Fin.ext (by
    show win0_6.index t (0 : Fin 3) * 1 + 1 * (j 0).val = t.val; omega)
  have hl : (ix3 (0 : Fin 1) (0 : Fin 1) (⟨((((cfg0.win 6).blk t).view.emb j) 2).val, ((((cfg0.win 6).blk t).view.emb j) 2).isLt⟩ : Fin 128)
      : S1x1x128.Idx) = j := funext fun a => Fin.ext (by
    match a with
    | ⟨0, _⟩ => show 0 = (j 0).val; omega
    | ⟨1, _⟩ => show 0 = (j 1).val; omega
    | ⟨2, _⟩ => show win0_6.index t (2 : Fin 3) * 128 + 1 * (j 2).val = (j 2).val; omega)
  have key : ∀ (t' : Fin cfg0.N) (j' : S1x1x128.Idx), t' = t → j' = j →
      Tile.tileOut (iblk0 V c 0 t') (iblk0 V c 1 t') (iblk0 V c 2 t') (iblk0 V c 3 t') (iblk0 V c 4 t') (iblk0 V c 5 t') j' = Tile.tileOut (iblk0 V c 0 t) (iblk0 V c 1 t) (iblk0 V c 2 t) (iblk0 V c 3 t) (iblk0 V c 4 t) (iblk0 V c 5 t) j := by
    rintro _ _ rfl rfl; rfl
  exact (key _ _ ht hl).symm

/-- An index of the output array is in point t's block iff each coordinate is in the block's range on its axis. -/
theorem mem_blk6 (t : Fin cfg0.N) (i : S128x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v1).slice (win0_6.rect t)).set ↔ _
  rw [View.set_slice_whole, Rect.mem_set_unit]
  exact Iff.rfl

/-- Every index of the output array is in the block of the point its row names. -/
theorem cover_out (i : S128x1x128.Idx) :
    ∃ t : Fin cfg0.N, (cfg0.win 6).flush t = true ∧ i ∈ ((cfg0.win 6).blk t).view.set := by
  refine ⟨tOf i, flush0_6 _, ?_⟩
  rw [mem_blk6]
  obtain ⟨e0, e1, e2⟩ := idx6 (tOf i)
  have ht : (tOf i).val = (i 0).val := rfl
  have h1 : (i 1).val < 1 := (i 1).isLt
  have h2 : (i 2).val < 128 := (i 2).isLt
  intro a
  match a with
  | ⟨0, _⟩ =>
    show win0_6.index (tOf i) (0 : Fin 3) * 1 ≤ (i 0).val ∧ (i 0).val < win0_6.index (tOf i) (0 : Fin 3) * 1 + 1
    omega
  | ⟨1, _⟩ =>
    show win0_6.index (tOf i) (1 : Fin 3) * 1 ≤ (i 1).val ∧ (i 1).val < win0_6.index (tOf i) (1 : Fin 3) * 1 + 1
    omega
  | ⟨2, _⟩ =>
    show win0_6.index (tOf i) (2 : Fin 3) * 128 ≤ (i 2).val ∧ (i 2).val < win0_6.index (tOf i) (2 : Fin 3) * 128 + 128
    omega

/-- The output array after the run is Gout. -/
theorem final6 (c : Dev nD) : (dat0 V c).arrAt 6 cfg0.N = Gout V c :=
  (dat0 V c).arrAt_eq_of_cover 6 (Gout V c) (fun t _ => flushed6_eq V c t) cover_out

/-- Gout at row t, lane l. -/
theorem Gout_apply (c : Dev nD) (t l : Fin 128) (h : t.val < cfg0.N) :
    Gout V c (ix3 t (0 : Fin 1) l)
      = Tile.tileOut (iblk0 V c 0 ⟨t.val, h⟩) (iblk0 V c 1 ⟨t.val, h⟩) (iblk0 V c 2 ⟨t.val, h⟩) (iblk0 V c 3 ⟨t.val, h⟩) (iblk0 V c 4 ⟨t.val, h⟩) (iblk0 V c 5 ⟨t.val, h⟩) (ix3 (0 : Fin 1) (0 : Fin 1) l) := rfl

/-! ## The input blocks of a point, read at an index -/

theorem div_lt (t : Fin cfg0.N) : t.val / 16 < 8 := by
  have h : cfg0.N = 128 := N_0
  have := t.isLt
  omega

theorem row_lt (t : Fin cfg0.N) (q : Fin 128) : t.val % 16 * 128 + q.val < 2048 := by
  have := q.isLt
  omega

/-- Window 0's block index at point t, decided over the grid. -/
theorem idxw0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, win0_0.index t (0 : Fin 3) = t.val / 16 ∧ win0_0.index t (1 : Fin 3) = t.val % 16
    ∧ win0_0.index t (2 : Fin 3) = 0)

/-- Window 0's block at point t: rows (t mod 16)·128 … +127 of batch t / 16. -/
theorem iblk_0 (c : Dev nD) (t : Fin cfg0.N) (q : Fin 128) (d : Fin 512) :
    iblk0 V c 0 t (ix3 (0 : Fin 1) q d)
      = V c main_arg0 (ix3 (⟨t.val / 16, div_lt t⟩ : Fin 8) (⟨t.val % 16 * 128 + q.val, row_lt t q⟩ : Fin 2048) d) := by
  obtain ⟨e0, e1, e2⟩ := idxw0 t
  show V c main_arg0 (((cfg0.win 0).blk t).view.emb (ix3 (0 : Fin 1) q d)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 128 + 1 * q.val = t.val % 16 * 128 + q.val; omega
  | ⟨2, _⟩ => show win0_0.index t (2 : Fin 3) * 512 + 1 * d.val = d.val; omega

/-- Window 1's block index at point t, decided over the grid. -/
theorem idxw1 : ∀ t : Fin cfg0.N, win0_1.index t (0 : Fin 3) = t.val / 16 ∧ win0_1.index t (1 : Fin 3) = 0
    ∧ win0_1.index t (2 : Fin 3) = 0 :=
  (by decide +kernel : ∀ t : Fin grid0.N, win0_1.index t (0 : Fin 3) = t.val / 16 ∧ win0_1.index t (1 : Fin 3) = 0
    ∧ win0_1.index t (2 : Fin 3) = 0)

/-- Window 1's block at point t: the whole of batch t / 16. -/
theorem iblk_1 (c : Dev nD) (t : Fin cfg0.N) (k : Fin 2048) (d : Fin 512) :
    iblk0 V c 1 t (ix3 (0 : Fin 1) k d) = V c main_arg0 (ix3 (⟨t.val / 16, div_lt t⟩ : Fin 8) k d) := by
  obtain ⟨e0, e1, e2⟩ := idxw1 t
  show V c main_arg0 (((cfg0.win 1).blk t).view.emb (ix3 (0 : Fin 1) k d)) = _
  refine congrArg _ (funext fun a => Fin.ext ?_)
  match a with
  | ⟨0, _⟩ => show win0_1.index t (0 : Fin 3) * 1 + 1 * 0 = t.val / 16; omega
  | ⟨1, _⟩ => show win0_1.index t (1 : Fin 3) * 2048 + 1 * k.val = k.val; omega
  | ⟨2, _⟩ => show win0_1.index t (2 : Fin 3) * 512 + 1 * d.val = d.val; omega

/-- Window 2's block index at point t, decided over the grid. -/
theorem idxw2 : ∀ t : Fin cfg0.N, win0_2.index t (0 : Fin 3) = t.val / 16 ∧ win0_2.index t (1 : Fin 3) = t.val % 16
    ∧ win0_2.index t (2 : Fin 3) = 0 :=
  (by decide +kernel : ∀ t : Fin grid0.N, win0_2.index t (0 : Fin 3) = t.val / 16 ∧ win0_2.index t (1 : Fin 3) = t.val % 16
    ∧ win0_2.index t (2 : Fin 3) = 0)

/-- Window 2's block at point t: rows (t mod 16)·128 … +127 of batch t / 16. -/
theorem iblk_2 (c : Dev nD) (t : Fin cfg0.N) (q : Fin 128) (d : Fin 3) :
    iblk0 V c 2 t (ix3 (0 : Fin 1) q d)
      = V c main_arg1 (ix3 (⟨t.val / 16, div_lt t⟩ : Fin 8) (⟨t.val % 16 * 128 + q.val, row_lt t q⟩ : Fin 2048) d) := by
  obtain ⟨e0, e1, e2⟩ := idxw2 t
  show V c main_arg1 (((cfg0.win 2).blk t).view.emb (ix3 (0 : Fin 1) q d)) = _
  refine congrArg _ (funext fun a => Fin.ext ?_)
  match a with
  | ⟨0, _⟩ => show win0_2.index t (0 : Fin 3) * 1 + 1 * 0 = t.val / 16; omega
  | ⟨1, _⟩ => show win0_2.index t (1 : Fin 3) * 128 + 1 * q.val = t.val % 16 * 128 + q.val; omega
  | ⟨2, _⟩ => show win0_2.index t (2 : Fin 3) * 3 + 1 * d.val = d.val; omega

/-- Window 3's block index at point t, decided over the grid. -/
theorem idxw3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- Window 3's block at point t: the whole of batch t / 16. -/
theorem iblk_3 (c : Dev nD) (t : Fin cfg0.N) (k : Fin 2048) (d : Fin 3) :
    iblk0 V c 3 t (ix3 (0 : Fin 1) k d) = V c main_arg1 (ix3 (⟨t.val / 16, div_lt t⟩ : Fin 8) k d) := by
  obtain ⟨e0, e1, e2⟩ := idxw3 t
  show V c main_arg1 (((cfg0.win 3).blk t).view.emb (ix3 (0 : Fin 1) k d)) = _
  refine congrArg _ (funext fun a => Fin.ext ?_)
  match a with
  | ⟨0, _⟩ => show win0_3.index t (0 : Fin 3) * 1 + 1 * 0 = t.val / 16; omega
  | ⟨1, _⟩ => show win0_3.index t (1 : Fin 3) * 2048 + 1 * k.val = k.val; omega
  | ⟨2, _⟩ => show win0_3.index t (2 : Fin 3) * 3 + 1 * d.val = d.val; omega

/-- Window 4's block index at point t, decided over the grid. -/
theorem idxw4 : ∀ t : Fin cfg0.N, win0_4.index t (0 : Fin 3) = t.val / 16 ∧ win0_4.index t (1 : Fin 3) = t.val % 16
    ∧ win0_4.index t (2 : Fin 3) = 0 :=
  (by decide +kernel : ∀ t : Fin grid0.N, win0_4.index t (0 : Fin 3) = t.val / 16 ∧ win0_4.index t (1 : Fin 3) = t.val % 16
    ∧ win0_4.index t (2 : Fin 3) = 0)

/-- Window 4's block at point t: rows (t mod 16)·128 … +127 of batch t / 16. -/
theorem iblk_4 (c : Dev nD) (t : Fin cfg0.N) (q : Fin 128) (d : Fin 1) :
    iblk0 V c 4 t (ix3 (0 : Fin 1) q d)
      = V c main_v0 (ix3 (⟨t.val / 16, div_lt t⟩ : Fin 8) (⟨t.val % 16 * 128 + q.val, row_lt t q⟩ : Fin 2048) d) := by
  obtain ⟨e0, e1, e2⟩ := idxw4 t
  show V c main_v0 (((cfg0.win 4).blk t).view.emb (ix3 (0 : Fin 1) q d)) = _
  refine congrArg _ (funext fun a => Fin.ext ?_)
  match a with
  | ⟨0, _⟩ => show win0_4.index t (0 : Fin 3) * 1 + 1 * 0 = t.val / 16; omega
  | ⟨1, _⟩ => show win0_4.index t (1 : Fin 3) * 128 + 1 * q.val = t.val % 16 * 128 + q.val; omega
  | ⟨2, _⟩ => show win0_4.index t (2 : Fin 3) * 1 + 1 * d.val = d.val; omega

/-- Window 5's block index at point t, decided over the grid. -/
theorem idxw5 : ∀ t : Fin cfg0.N, win0_5.index t (0 : Fin 3) = t.val / 16 ∧ win0_5.index t (1 : Fin 3) = 0
    ∧ win0_5.index t (2 : Fin 3) = 0 :=
  (by decide +kernel : ∀ t : Fin grid0.N, win0_5.index t (0 : Fin 3) = t.val / 16 ∧ win0_5.index t (1 : Fin 3) = 0
    ∧ win0_5.index t (2 : Fin 3) = 0)

/-- Window 5's block at point t: the whole of batch t / 16. -/
theorem iblk_5 (c : Dev nD) (t : Fin cfg0.N) (k : Fin 2048) (d : Fin 1) :
    iblk0 V c 5 t (ix3 (0 : Fin 1) k d) = V c main_v0 (ix3 (⟨t.val / 16, div_lt t⟩ : Fin 8) k d) := by
  obtain ⟨e0, e1, e2⟩ := idxw5 t
  show V c main_v0 (((cfg0.win 5).blk t).view.emb (ix3 (0 : Fin 1) k d)) = _
  refine congrArg _ (funext fun a => Fin.ext ?_)
  match a with
  | ⟨0, _⟩ => show win0_5.index t (0 : Fin 3) * 1 + 1 * 0 = t.val / 16; omega
  | ⟨1, _⟩ => show win0_5.index t (1 : Fin 3) * 2048 + 1 * k.val = k.val; omega
  | ⟨2, _⟩ => show win0_5.index t (2 : Fin 3) * 1 + 1 * d.val = d.val; omega

end Region

end Cert.KernelIdeal.Fr

end
-- ==== Proof.Spec.lean ====
/-
  The distance-constraint loss as ONE function of the three argument arrays, on the extended reals.

  For rows x, y of an array, ssq x = Σ_k x_k², dot x y = Σ_k x_k y_k, and the pair distance is
  pdist x y = √(sel(d2 > 0, d2, 1)) · [d2 > 0] with d2 = max(ssq x + ssq y − 2·dot x y, 0).
  An embedding row is first scaled by 1 / max(√(ssq x), ε).  A pair (n, m) of one batch contributes
  ploss = [pdist(c_n, c_m) < 10] · max(pdist(ê_n, ê_m) − 1, 0) · (mask_n · mask_m) to the numerator and
  pmask = mask_n · mask_m to the denominator; the result is (Σ ploss) / (Σ pmask + ε₈), the sums over
  every batch and every ordered pair of its rows.
-/
import Idealize.ShloMosaic.PureOps.Ideal
import Idealize.ShloMosaic.Lib.ValueIdx
import Idealize.ShloMosaic.Lib.IdealHost

noncomputable section

open scoped BigOperators

namespace Cert.Spec

open Idealize.ShloMosaic

/-- The float literals both programs spell, as the extended reals their words denote. -/
abbrev c0 : EReal := Ideal.ofBits .f32 0x00000000#32
abbrev c1 : EReal := Ideal.ofBits .f32 0x3F800000#32
abbrev c2 : EReal := Ideal.ofBits .f32 0x40000000#32
abbrev c10 : EReal := Ideal.ofBits .f32 0x41200000#32
abbrev cEps : EReal := Ideal.ofBits .f32 0x2B8CBCCC#32
abbrev cEps8 : EReal := Ideal.ofBits .f32 0x322BCC77#32

/-- A one-bit condition as the number 0 or 1. -/
def b2r (b : BitVec 1) : EReal := ((b.toNat : ℝ) : EReal)

/-- The sum of a row's squares. -/
def ssq {K : ℕ} (x : Fin K → EReal) : EReal := ∑ k, x k * x k
/-- The inner product of two rows. -/
def dot {K : ℕ} (x y : Fin K → EReal) : EReal := ∑ k, x k * y k
/-- A row divided by its norm, the norm kept above ε. -/
def nrm {K : ℕ} (x : Fin K → EReal) : Fin K → EReal :=
  fun k => Ideal.div (x k) (max (Ideal.sqrt (ssq x)) cEps)
/-- The squared distance of two rows through the polarization identity, clamped at zero. -/
def d2 {K : ℕ} (x y : Fin K → EReal) : EReal := max (ssq x + ssq y - c2 * dot x y) c0
/-- The distance of two rows: the root of the squared distance where that is positive, zero elsewhere. -/
def pdist {K : ℕ} (x y : Fin K → EReal) : EReal :=
  Ideal.sqrt (Scalar.select (Ideal.cmp .ogt (d2 x y) c0) (d2 x y) c1) * b2r (Ideal.cmp .ogt (d2 x y) c0)
/-- A pair's weight: the product of its two rows' mask entries. -/
def pmask (mn mm : EReal) : EReal := mn * mm
/-- A pair's loss: neighbours in coordinate space (distance below 10) pay their embedding distance above the margin 1. -/
def ploss {D : ℕ} (en em : Fin D → EReal) (cn cm : Fin 3 → EReal) (mn mm : EReal) : EReal :=
  b2r (Ideal.cmp .olt (pdist cn cm) c10) * max (pdist (nrm en) (nrm em) - c1) c0 * pmask mn mm

/-- The loss: the masked pair losses summed over every batch and ordered pair of rows, over the summed weights plus ε₈. -/
def total (e : Fin 8 → Fin 2048 → Fin 512 → EReal) (c : Fin 8 → Fin 2048 → Fin 3 → EReal) (msk : Fin 8 → Fin 2048 → EReal) : EReal :=
  Ideal.div (∑ b, ∑ n, ∑ m, ploss (e b n) (e b m) (c b n) (c b m) (msk b n) (msk b m))
    ((∑ b, ∑ n, ∑ m, pmask (msk b n) (msk b m)) + cEps8)

/-- A one-bit word widened to 32 bits and read signed is the bit. -/
theorem b2r_setWidth (b : BitVec 1) : (((b.setWidth 32).toInt : ℝ) : EReal) = b2r b := by
  unfold b2r
  rcases BitVec.eq_zero_or_eq_one b with h | h <;> subst h <;> simp

/-- The zero word denotes zero. -/
theorem c0_eq : c0 = 0 := Ideal.ofBits_zero_f32

end Cert.Spec

end
-- ==== Proof.TailI.lean ====
/-
  The host operations after the grid, as one function of the output array.

  The output array [128, 1, 128] holds one row per grid point: lane 0 the point's summed pair losses, lane 1 its
  summed pair weights.  The tail takes lane 0 and lane 1 as vectors of the 128 rows, sums each from zero, adds ε₈
  to the second sum and divides: (Σ_t o[t,0,0]) / (Σ_t o[t,0,1] + ε₈).
-/
import proofs.«102639_j14474039787802_2_alg».proof.Proof.Gen.KernelIdeal.Launch
import proofs.«102639_j14474039787802_2_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Tail

open Idealize.ShloMosaic Idealize.ShloMosaic.ValueIdx Cert.KernelIdeal Cert.KernelIdeal.Gen

variable {F : FTy → Type} [FloatOps F]

/-- Lane 0 of every row, as a vector of the 128 rows. -/
def lane0 (o : (⟨S128x1x128, .f32⟩ : BufTy).Contents (Elt F)) : (⟨S128, .f32⟩ : BufTy).Contents (Elt F) :=
  shapeCast S128 (extractStridedSlice S128x1x1 ![0, 0, 0] o slices_S128x1x128_S128x1x1_0_0_0) shapeCasts_S128x1x1_S128

/-- Lane 1 of every row, as a vector of the 128 rows. -/
def lane1 (o : (⟨S128x1x128, .f32⟩ : BufTy).Contents (Elt F)) : (⟨S128, .f32⟩ : BufTy).Contents (Elt F) :=
  shapeCast S128 (extractStridedSlice S128x1x1 ![0, 0, 1] o slices_S128x1x128_S128x1x1_0_0_1) shapeCasts_S128x1x1_S128

/-- The eleven host operations after the grid, composed: the sum of lane 0 over the sum of lane 1 plus ε₈. -/
def tail (o : (⟨S128x1x128, .f32⟩ : BufTy).Contents (Elt F)) : (⟨S_, .f32⟩ : BufTy).Contents (Elt F) :=
  Host.divf
    (Host.reduceAdd (lane0 o) (constant (F := F) S_ .f32 0x00000000#32) reducesTo_S128_S_d0 h_S_)
    (addf (Host.reduceAdd (lane1 o) (constant (F := F) S_ .f32 0x00000000#32) reducesTo_S128_S_d0 h_S_)
      (constant (F := F) S_ .f32 0x322BCC77#32))

/-- The result buffer after the eleven operations is the tail of the output array's contents before them. -/
theorem after_tail (X : Valuation τ sig (Elt F)) :
    StableHlo.after (hostOps1 (F := F)) X (Proc.devRef .tc main_v9) = tail (X (Proc.devRef .tc main_v1)) := by
  open Idealize.ShloMosaic.StableHlo in after_results
  rfl

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- An [a, 1, 1] array cast to [a] reads, at t, the operand at (t, 0, 0). -/
theorem shapeCast_a11_a_apply {α : Type} {a : ℕ} (x : (⟨3, ![a, 1, 1]⟩ : Shape).Idx → α)
    (h : (⟨3, ![a, 1, 1]⟩ : Shape).ShapeCasts ⟨1, ![a]⟩) (t : Fin a) :
    shapeCast ⟨1, ![a]⟩ x h (ix1 t) = x (ix3 t (0 : Fin 1) (0 : Fin 1)) :=
  shapeCast_apply x h _ _ (by
    rw [Shape.rowMajor_val_three, Shape.rowMajor_val_one]
    show (t.val * 1 + 0) * 1 + 0 = t.val
    omega)

/-- Lane 0 at row t is the output array's entry (t, 0, 0). -/
theorem lane0_apply (o : (⟨S128x1x128, .f32⟩ : BufTy).Contents (Elt F)) (t : Fin 128) :
    lane0 o (ix1 t) = o (ix3 t (0 : Fin 1) (0 : Fin 128)) := by
  unfold lane0
  refine (shapeCast_a11_a_apply _ _ t).trans ?_
  exact extractStridedSlice_apply _ _ _ _ _ (fun a => match a with
    | ⟨0, _⟩ => (Nat.zero_add _).symm
    | ⟨1, _⟩ => rfl
    | ⟨2, _⟩ => rfl)

/-- Lane 1 at row t is the output array's entry (t, 0, 1). -/
theorem lane1_apply (o : (⟨S128x1x128, .f32⟩ : BufTy).Contents (Elt F)) (t : Fin 128) :
    lane1 o (ix1 t) = o (ix3 t (0 : Fin 1) (1 : Fin 128)) := by
  unfold lane1
  refine (shapeCast_a11_a_apply _ _ t).trans ?_
  exact extractStridedSlice_apply _ _ _ _ _ (fun a => match a with
    | ⟨0, _⟩ => (Nat.zero_add _).symm
    | ⟨1, _⟩ => rfl
    | ⟨2, _⟩ => rfl)

/-- On the extended reals the host's sum of a vector of 128 entries from the zero word is the sum of the entries. -/
theorem sumLane (x : (⟨S128, .f32⟩ : BufTy).Contents (Elt Ideal)) (f : Fin 128 → EReal) (hx : ∀ t, x (ix1 t) = f t)
    (i : S_.Idx) :
    Host.reduceAdd x (constant (F := Ideal) S_ .f32 0x00000000#32) reducesTo_S128_S_d0 h_S_ i = ∑ t, f t := by
  rw [hostReduceAdd_apply, Ideal.hostReduceAdd_total reducesTo_S128_S_d0 (fun b => b.elim0), constant_apply, sum_idx1]
  exact (congrArg₂ (· + ·) Cert.Spec.c0_eq (Finset.sum_congr rfl fun t _ => hx t)).trans (zero_add _)

/-- On the extended reals the tail is the summed lane 0 over the summed lane 1 plus ε₈. -/
theorem tail_apply (o : (⟨S128x1x128, .f32⟩ : BufTy).Contents (Elt Ideal)) (i : S_.Idx) :
    tail (F := Ideal) o i
      = Ideal.div (∑ t : Fin 128, o (ix3 t (0 : Fin 1) (0 : Fin 128)))
          ((∑ t : Fin 128, o (ix3 t (0 : Fin 1) (1 : Fin 128))) + Cert.Spec.cEps8) := by
  have h0 := sumLane (lane0 o) _ (lane0_apply o) i
  have h1 := sumLane (lane1 o) _ (lane1_apply o) i
  unfold tail
  show Ideal.div (Host.reduceAdd (lane0 o) _ reducesTo_S128_S_d0 h_S_ i)
    (Host.reduceAdd (lane1 o) _ reducesTo_S128_S_d0 h_S_ i + Ideal.ofBits .f32 0x322BCC77#32) = _
  rw [h0, h1]

end Cert.KernelIdeal.Tail

end
-- ==== Proof.TileLayout.lean ====
/-
  Layout operations, one-axis sums and a row-by-row product read at an index given by coordinates: the
  keepdims column forms (a vector cast to a column, a column broadcast across a row), a matrix summed along
  its rows or along its columns, and the product of a matrix with the transpose of another.
-/
import proofs.«102639_j14474039787802_2_alg».proof.Proof.TileDefI
import proofs.«102639_j14474039787802_2_alg».proof.Proof.Spec
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A square root taken entry by entry reads, at an index, the root of the entry. -/
theorem sqrt_apply {s : Shape} {φ : FTy} (a : FVec Ideal s φ) (i : s.Idx) : sqrt a i = Ideal.sqrt (a i) := rfl

/-- A one-bit condition widened to 32 bits and converted to a float is the number 0 or 1. -/
theorem sitofp_setWidth (b : BitVec 1) : FloatOps.sitofp (F := Ideal) .f32 (b.setWidth 32) = Cert.Spec.b2r b :=
  Cert.Spec.b2r_setWidth b

/-- A float literal's word, read at the ideal values, is the extended real it denotes. -/
theorem scalar_ofBits_eq (b : BitVec 32) : Scalar.ofBits (F := Ideal) .f32 b = Ideal.ofBits .f32 b := rfl

/-- A matrix summed along each row: at row `q`, the sum over the columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (q : Fin a) :
    multiReduction .add [1] ⟨1, ![a]⟩ src 0x00000000#32 h hφ hacc (ix1 q) = ∑ k : Fin b, src (ix2 q k) := by
  refine (Ideal.multiReduction_add_single src 0x00000000#32 h hφ hacc (ix1 q)).trans ?_
  refine Finset.sum_congr rfl fun k _ => congrArg src (funext fun c => ?_)
  match c with
  | ⟨0, _⟩ => rfl
  | ⟨1, _⟩ => rfl

/-- A matrix summed along each column: at column `c`, the sum over the rows. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ src 0x00000000#32 h hφ hacc (ix1 c) = ∑ q : Fin a, src (ix2 q c) := by
  refine (Ideal.multiReduction_add_single src 0x00000000#32 h hφ hacc (ix1 c)).trans ?_
  refine Finset.sum_congr rfl fun q _ => congrArg src (funext fun d => ?_)
  match d with
  | ⟨0, _⟩ => rfl
  | ⟨1, _⟩ => rfl

/-- The product of an m×k matrix with the transpose of an n×k one, accumulated into zero: at `(p, c)`, the sum over the
    contracted coordinate of the products of the two rows' entries. -/
theorem matmulT_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (p : Fin m) (c : Fin n) :
    matmul (⟨[1], [1], [0], [0], [], [], w⟩ : DotDims _ _ _) prec A B (constant ⟨2, ![m, n]⟩ .f32 0x00000000#32) (ix2 p c)
      = ∑ d : Fin k, A (ix2 p d) * B (ix2 c d) := by
  show FloatOps.matmul _ prec A B (constant ⟨2, ![m, n]⟩ .f32 0x00000000#32) (ix2 p c) = _
  rw [Ideal.matmul_constant_zero_apply,
    ← Equiv.sum_comp (contrEquiv1 (⟨[1], [1], [0], [0], [], [], w⟩ : DotDims _ _ _) k rfl rfl).symm]
  refine Finset.sum_congr rfl fun d _ => ?_
  have c2 := contrEquiv1_symm_val
    (⟨[1], [1], [0], [0], [], [], w⟩ : DotDims ⟨2, ![m, k]⟩ ⟨2, ![n, k]⟩ ⟨2, ![m, n]⟩) k rfl rfl d
  have l2 : (⟨[1], [1], [0], [0], [], [], w⟩ : DotDims ⟨2, ![m, k]⟩ ⟨2, ![n, k]⟩ ⟨2, ![m, n]⟩).lhsIdx (ix2 p c)
      ((contrEquiv1 _ k rfl rfl).symm d) = ix2 p d := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 p c)
      ((contrEquiv1 _ k rfl rfl).symm d) = ix2 c d := by
    funext ax; apply Fin.ext
    match ax with
    | ⟨0, _⟩ => simp [DotDims.rhsIdx]; rfl
    | ⟨1, _⟩ => simp [DotDims.rhsIdx]; exact c2
  rw [l2, r2]

end Cert.KernelIdeal.Tile

end
-- ==== Proof.TileRows.lean ====
/-
  The scaled embedding rows of one grid point, their sums of squares and their inner products, read at coordinates.
-/
import proofs.«102639_j14474039787802_2_alg».proof.Proof.TileLayout

noncomputable section

open scoped BigOperators

namespace Cert.KernelIdeal.Tile

open Idealize.ShloMosaic Idealize.ShloMosaic.ValueIdx Cert.KernelIdeal Cert.KernelIdeal.Gen

/-- Row `q` of the query block's embeddings. -/
abbrev eq (x0 : Vec Ideal S1x128x512 .f32) (q : Fin 128) : Fin 512 → EReal := fun d => x0 (ix3 (0 : Fin 1) q d)
/-- Row `k` of the key side's embeddings. -/
abbrev ek (x1 : Vec Ideal S1x2048x512 .f32) (k : Fin 2048) : Fin 512 → EReal := fun d => x1 (ix3 (0 : Fin 1) k d)

/-- The query rows divided by their norms: entry `(q, d)` is the scaled row's entry `d`. -/
theorem pay6_apply (x0 : Vec Ideal S1x128x512 .f32) (q : Fin 128) (d : Fin 512) :
    k0_pay6 (F := Ideal) x0 (ix2 q d) = Cert.Spec.nrm (eq x0 q) d := by
  unfold k0_pay6
  dsimp only
  rw [divf_apply, shapeCast_1ab_ab_apply, broadcastTo_a1_ab_apply, maximumf_apply]
  show Ideal.div _ (max (Ideal.sqrt (shapeCast S128x1 _ shapeCasts_S128_S128x1 (ix2 q (0 : Fin 1)))) Cert.Spec.cEps) = _
  rw [shapeCast_a_a1_apply, rowSum_apply]
  simp only [mulf_apply, shapeCast_1ab_ab_apply]
  rfl

/-- The key rows divided by their norms. -/
theorem pay7_apply (x1 : Vec Ideal S1x2048x512 .f32) (k : Fin 2048) (d : Fin 512) :
    k0_pay7 (F := Ideal) x1 (ix2 k d) = Cert.Spec.nrm (ek x1 k) d := by
  unfold k0_pay7
  dsimp only
  rw [divf_apply, shapeCast_1ab_ab_apply, broadcastTo_a1_ab_apply, maximumf_apply]
  show Ideal.div _ (max (Ideal.sqrt (shapeCast S2048x1 _ shapeCasts_S2048_S2048x1 (ix2 k (0 : Fin 1)))) Cert.Spec.cEps) = _
  rw [shapeCast_a_a1_apply, rowSum_apply]
  simp only [mulf_apply, shapeCast_1ab_ab_apply]
  rfl

/-- The column of the scaled query rows' sums of squares. -/
theorem pay9_apply (x0 : Vec Ideal S1x128x512 .f32) (q : Fin 128) (u : Fin 1) :
    k0_pay9 (F := Ideal) x0 (ix2 q u) = Cert.Spec.ssq (Cert.Spec.nrm (eq x0 q)) := by
  unfold k0_pay9
  rw [shapeCast_a_a1_apply, rowSum_apply]
  simp only [mulf_apply, pay6_apply]
  rfl

/-- The product of the scaled query rows with the scaled key rows: entry `(q, k)` is the two rows' inner product. -/
theorem pay8_apply (x0 : Vec Ideal S1x128x512 .f32) (x1 : Vec Ideal S1x2048x512 .f32) (q : Fin 128) (k : Fin 2048) :
    k0_pay8 (F := Ideal) x0 x1 (ix2 q k) = Cert.Spec.dot (Cert.Spec.nrm (eq x0 q)) (Cert.Spec.nrm (ek x1 k)) := by
  unfold k0_pay8
  refine (matmulT_apply _ none _ _ q k).trans ?_
  simp only [truncf_apply, pay6_apply, pay7_apply]
  rfl

end Cert.KernelIdeal.Tile

end
-- ==== Proof.TileDist.lean ====
/-
  The pair distances of one grid point read at coordinates: of the scaled embedding rows, and of the raw coordinate rows
  (the root and the widened bit, whose product is the distance).
-/
import proofs.«102639_j14474039787802_2_alg».proof.Proof.TileLayout

noncomputable section

open scoped BigOperators

namespace Cert.KernelIdeal.Tile

open Idealize.ShloMosaic Idealize.ShloMosaic.ValueIdx Cert.KernelIdeal Cert.KernelIdeal.Gen

/-- Row `q` of the query block's coordinates. -/
abbrev cq (x2 : Vec Ideal S1x128x3 .f32) (q : Fin 128) : Fin 3 → EReal := fun d => x2 (ix3 (0 : Fin 1) q d)
/-- Row `k` of the key side's coordinates. -/
abbrev ck (x3 : Vec Ideal S1x2048x3 .f32) (k : Fin 2048) : Fin 3 → EReal := fun d => x3 (ix3 (0 : Fin 1) k d)

/-- The query block's coordinates as a matrix. -/
theorem pay2_apply (x2 : Vec Ideal S1x128x3 .f32) (q : Fin 128) (d : Fin 3) :
    k0_pay2 (F := Ideal) x2 (ix2 q d) = cq x2 q d := by
  unfold k0_pay2
  exact shapeCast_1ab_ab_apply x2 _ q d

/-- The key side's coordinates as a matrix. -/
theorem pay3_apply (x3 : Vec Ideal S1x2048x3 .f32) (k : Fin 2048) (d : Fin 3) :
    k0_pay3 (F := Ideal) x3 (ix2 k d) = ck x3 k d := by
  unfold k0_pay3
  exact shapeCast_1ab_ab_apply x3 _ k d

/-- The query block's mask as a column. -/
theorem pay4_apply (x4 : Vec Ideal S1x128x1 .f32) (q : Fin 128) (u : Fin 1) :
    k0_pay4 (F := Ideal) x4 (ix2 q u) = x4 (ix3 (0 : Fin 1) q u) := by
  unfold k0_pay4
  exact shapeCast_1ab_ab_apply x4 _ q u

/-- The key side's mask as a column. -/
theorem pay5_apply (x5 : Vec Ideal S1x2048x1 .f32) (k : Fin 2048) (u : Fin 1) :
    k0_pay5 (F := Ideal) x5 (ix2 k u) = x5 (ix3 (0 : Fin 1) k u) := by
  unfold k0_pay5
  exact shapeCast_1ab_ab_apply x5 _ k u

/-- The pair distance from the key rows, the matrix of inner products and the column of the query rows' sums of squares:
    whatever rows `A`, `B` those read as at the pair `(q, k)`, entry `(q, k)` is the distance of `A` and `B`. -/
theorem pay10_apply (v27 : FVec Ideal S2048x512 .f32) (v30 : FVec Ideal S128x2048 .f32) (v33 : FVec Ideal S128x1 .f32)
    (q : Fin 128) (k : Fin 2048) (A B : Fin 512 → EReal)
    (h27 : ∀ d, v27 (ix2 k d) = B d) (h30 : v30 (ix2 q k) = Cert.Spec.dot A B)
    (h33 : v33 (ix2 q (0 : Fin 1)) = Cert.Spec.ssq A) :
    k0_pay10 (F := Ideal) v27 v30 v33 (ix2 q k) = Cert.Spec.pdist A B := by
  unfold k0_pay10
  simp only [mulf_apply, sqrt_apply, select_apply, cmpf_apply, maximumf_apply, subf_apply, addf_apply, broadcast_apply,
    broadcastTo_a1_ab_apply, broadcastTo_1b_ab_apply, sitofp_apply, extui_apply, sitofp_setWidth, scalar_ofBits_eq, h30, h33]
  rw [transpose_ix2_apply, shapeCast_a_a1_apply, rowSum_apply]
  simp only [mulf_apply, h27]
  rfl

/-- The clamped squared distance of two coordinate rows through the polarization identity. -/
theorem pay11_apply (v5 : FVec Ideal S128x3 .f32) (v7 : FVec Ideal S2048x3 .f32) (q : Fin 128) (k : Fin 2048)
    (A B : Fin 3 → EReal) (h5 : ∀ d, v5 (ix2 q d) = A d) (h7 : ∀ d, v7 (ix2 k d) = B d) :
    k0_pay11 (F := Ideal) v5 v7 (ix2 q k) = Cert.Spec.d2 A B := by
  have hm : matmul dot_S128x3_S2048x3_S128x2048_1_1_0_0_n_n (some .fp32) v5 v7 (constant S128x2048 .f32 0x00000000#32) (ix2 q k)
      = ∑ d : Fin 3, v5 (ix2 q d) * v7 (ix2 k d) := matmulT_apply _ (some .fp32) v5 v7 q k
  unfold k0_pay11
  simp only [maximumf_apply, subf_apply, addf_apply, mulf_apply, broadcast_apply, broadcastTo_a1_ab_apply,
    broadcastTo_1b_ab_apply, shapeCast_a_a1_apply, hm, h5, h7, scalar_ofBits_eq]
  rw [rowSum_apply, transpose_ix2_apply, shapeCast_a_a1_apply, rowSum_apply]
  simp only [mulf_apply, h5, h7]
  rfl

/-- The root in the coordinate rows' distance. -/
theorem pay12_apply (v5 : FVec Ideal S128x3 .f32) (v7 : FVec Ideal S2048x3 .f32) (q : Fin 128) (k : Fin 2048)
    (A B : Fin 3 → EReal) (h5 : ∀ d, v5 (ix2 q d) = A d) (h7 : ∀ d, v7 (ix2 k d) = B d) :
    k0_pay12 (F := Ideal) v5 v7 (ix2 q k)
      = Ideal.sqrt (Scalar.select (Ideal.cmp .ogt (Cert.Spec.d2 A B) Cert.Spec.c0) (Cert.Spec.d2 A B) Cert.Spec.c1) := by
  unfold k0_pay12
  simp only [sqrt_apply, select_apply, cmpf_apply, broadcast_apply, pay11_apply v5 v7 q k A B h5 h7, scalar_ofBits_eq]
  rfl

/-- The widened bit in the coordinate rows' distance. -/
theorem pay13_apply (v5 : FVec Ideal S128x3 .f32) (v7 : FVec Ideal S2048x3 .f32) (q : Fin 128) (k : Fin 2048)
    (A B : Fin 3 → EReal) (h5 : ∀ d, v5 (ix2 q d) = A d) (h7 : ∀ d, v7 (ix2 k d) = B d) :
    k0_pay13 (F := Ideal) v5 v7 (ix2 q k) = (Ideal.cmp .ogt (Cert.Spec.d2 A B) Cert.Spec.c0).setWidth 32 := by
  unfold k0_pay13
  simp only [extui_apply, cmpf_apply, broadcast_apply, pay11_apply v5 v7 q k A B h5 h7, scalar_ofBits_eq]
  rfl

/-- The root times the bit read as a number is the coordinate rows' distance. -/
theorem pay12_mul_pay13 (v5 : FVec Ideal S128x3 .f32) (v7 : FVec Ideal S2048x3 .f32) (q : Fin 128) (k : Fin 2048)
    (A B : Fin 3 → EReal) (h5 : ∀ d, v5 (ix2 q d) = A d) (h7 : ∀ d, v7 (ix2 k d) = B d) :
    k0_pay12 (F := Ideal) v5 v7 (ix2 q k) * FloatOps.sitofp (F := Ideal) .f32 (k0_pay13 (F := Ideal) v5 v7 (ix2 q k))
      = Cert.Spec.pdist A B := by
  rw [pay12_apply v5 v7 q k A B h5 h7, pay13_apply v5 v7 q k A B h5 h7, sitofp_setWidth]
  rfl

end Cert.KernelIdeal.Tile

end
-- ==== Proof.TileValue.lean ====
/-
  The value one grid point stores, read at lanes 0 and 1: the sums over the tile's pairs of the pair losses and of the
  pair weights.
-/
import proofs.«102639_j14474039787802_2_alg».proof.Proof.TileRows
import proofs.«102639_j14474039787802_2_alg».proof.Proof.TileDist

noncomputable section

open scoped BigOperators

namespace Cert.KernelIdeal.Tile

open Idealize.ShloMosaic Idealize.ShloMosaic.ValueIdx Cert.KernelIdeal Cert.KernelIdeal.Gen

section OneEntry
variable {α : Type}

/-- The one entry of a `[1, 1]` array. -/
theorem extractAt_00 (x : S1x1.Idx → α) (h : ∀ a, (![0, 0] : Fin 2 → Nat) a < S1x1.size a) :
    extractAt ![0, 0] x h = x (ix2 (0 : Fin 1) (0 : Fin 1)) := by
  unfold extractAt
  exact congrArg x (funext fun a => match a with | ⟨0, _⟩ => rfl | ⟨1, _⟩ => rfl)

end OneEntry

/-- A matrix summed along its rows, the column of row sums summed again, and the one entry of the result taken: the sum
    of all the matrix's entries, rows outermost. -/
theorem tileSum_apply (Mx : FVec Ideal S128x2048 .f32) (hφ : FKind.Formats .f32)
    (hacc : (0x00000000#32 : BitVec 32) = 0x00000000#32) :
    extractAt ![0, 0]
        (shapeCast S1x1
          (multiReduction .add [0] S1
            (shapeCast S128x1 (multiReduction .add [1] S128 Mx 0x00000000#32 reduces_S128x2048_S128 hφ hacc)
              shapeCasts_S128_S128x1)
            0x00000000#32 reduces_S128x1_S1 hφ hacc)
          shapeCasts_S1_S1x1)
        inpos_S1x1_p0_0
      = ∑ q : Fin 128, ∑ k : Fin 2048, Mx (ix2 q k) := by
  rw [extractAt_00, shapeCast_a_a1_apply, colSum_apply]
  refine Finset.sum_congr rfl fun q _ => ?_
  rw [shapeCast_a_a1_apply, rowSum_apply]

/-- The lane number compared with a constant: at lane `l`, the comparison of the word `l` with it. -/
theorem lane_cmp (l : Fin 128) (c : BitVec 32) :
    cmpi .eq (iota .tc S1x1x128 32 [2] iota_S1x1x128_d2_w32) (broadcast S1x1x128 c) (ix3 (0 : Fin 1) (0 : Fin 1) l)
      = IntOp.cmpi .eq (BitVec.ofNat 32 l.val) c := by
  show IntOp.cmpi .eq (iota .tc S1x1x128 32 [2] iota_S1x1x128_d2_w32 (ix3 (0 : Fin 1) (0 : Fin 1) l)) c = _
  rw [iota_single_apply]

/-- The stored vector's lane 0, from the mask columns, the embedding distances, and the coordinate distances' root and bit:
    whatever those read as at each pair, the sum over the pairs of [C < 10] · max(E − 1, 0) · (mask · mask). -/
theorem pay1_lane0 (v9 : FVec Ideal S128x1 .f32) (v11 : FVec Ideal S2048x1 .f32) (v55 v76 : FVec Ideal S128x2048 .f32)
    (v79 : IVec S128x2048 32) (E C : Fin 128 → Fin 2048 → EReal) (mq : Fin 128 → EReal) (mk : Fin 2048 → EReal)
    (h55 : ∀ q k, v55 (ix2 q k) = E q k)
    (hC : ∀ q k, v76 (ix2 q k) * FloatOps.sitofp (F := Ideal) .f32 (v79 (ix2 q k)) = C q k)
    (h9 : ∀ q, v9 (ix2 q (0 : Fin 1)) = mq q) (h11 : ∀ k, v11 (ix2 k (0 : Fin 1)) = mk k) :
    k0_pay1 (F := Ideal) v9 v11 v55 v76 v79 (ix3 (0 : Fin 1) (0 : Fin 1) (0 : Fin 128))
      = ∑ q : Fin 128, ∑ k : Fin 2048,
          Cert.Spec.b2r (Ideal.cmp .olt (C q k) Cert.Spec.c10) * max (E q k - Cert.Spec.c1) Cert.Spec.c0 * (mq q * mk k) := by
  unfold k0_pay1
  simp only [select_apply, broadcast_apply]
  rw [lane_cmp, tileSum_apply]
  rw [show IntOp.cmpi .eq (BitVec.ofNat 32 (0 : Fin 128).val) 0#32 = 1#1 from by decide, select_one]
  refine Finset.sum_congr rfl fun q _ => Finset.sum_congr rfl fun k _ => ?_
  simp only [mulf_apply, sitofp_apply, extui_apply, cmpf_apply, broadcast_apply, maximumf_apply, subf_apply,
    broadcastTo_a1_ab_apply, broadcastTo_1b_ab_apply, sitofp_setWidth, scalar_ofBits_eq, h55, hC, h9]
  rw [transpose_ix2_apply, h11]
  rfl

/-- The stored vector's lane 1: the sum over the pairs of mask · mask. -/
theorem pay1_lane1 (v9 : FVec Ideal S128x1 .f32) (v11 : FVec Ideal S2048x1 .f32) (v55 v76 : FVec Ideal S128x2048 .f32)
    (v79 : IVec S128x2048 32) (mq : Fin 128 → EReal) (mk : Fin 2048 → EReal)
    (h9 : ∀ q, v9 (ix2 q (0 : Fin 1)) = mq q) (h11 : ∀ k, v11 (ix2 k (0 : Fin 1)) = mk k) :
    k0_pay1 (F := Ideal) v9 v11 v55 v76 v79 (ix3 (0 : Fin 1) (0 : Fin 1) (1 : Fin 128))
      = ∑ q : Fin 128, ∑ k : Fin 2048, mq q * mk k := by
  unfold k0_pay1
  simp only [select_apply, broadcast_apply]
  rw [lane_cmp, lane_cmp]
  rw [show IntOp.cmpi .eq (BitVec.ofNat 32 (1 : Fin 128).val) 0#32 = 0#1 from by decide, select_zero,
    show IntOp.cmpi .eq (BitVec.ofNat 32 (1 : Fin 128).val) 1#32 = 1#1 from by decide, select_one, tileSum_apply]
  refine Finset.sum_congr rfl fun q _ => Finset.sum_congr rfl fun k _ => ?_
  simp only [mulf_apply, broadcastTo_a1_ab_apply, broadcastTo_1b_ab_apply, h9]
  rw [transpose_ix2_apply, h11]

/-- Lane 0 of what a grid point stores: its pairs' losses summed, query rows outermost. -/
theorem tileOut_lane0 (x0 : Vec Ideal S1x128x512 .f32) (x1 : Vec Ideal S1x2048x512 .f32) (x2 : Vec Ideal S1x128x3 .f32)
    (x3 : Vec Ideal S1x2048x3 .f32) (x4 : Vec Ideal S1x128x1 .f32) (x5 : Vec Ideal S1x2048x1 .f32) :
    tileOut (F := Ideal) x0 x1 x2 x3 x4 x5 (ix3 (0 : Fin 1) (0 : Fin 1) (0 : Fin 128))
      = ∑ q : Fin 128, ∑ k : Fin 2048,
          Cert.Spec.ploss (fun d : Fin 512 => x0 (ix3 (0 : Fin 1) q d)) (fun d : Fin 512 => x1 (ix3 (0 : Fin 1) k d))
            (fun d : Fin 3 => x2 (ix3 (0 : Fin 1) q d)) (fun d : Fin 3 => x3 (ix3 (0 : Fin 1) k d))
            (x4 (ix3 (0 : Fin 1) q (0 : Fin 1))) (x5 (ix3 (0 : Fin 1) k (0 : Fin 1))) := by
  unfold tileOut
  exact pay1_lane0 _ _ _ _ _
    (fun q k => Cert.Spec.pdist (Cert.Spec.nrm (eq x0 q)) (Cert.Spec.nrm (ek x1 k)))
    (fun q k => Cert.Spec.pdist (cq x2 q) (ck x3 k))
    (fun q => x4 (ix3 (0 : Fin 1) q (0 : Fin 1))) (fun k => x5 (ix3 (0 : Fin 1) k (0 : Fin 1)))
    (fun q k => pay10_apply _ _ _ q k _ _ (fun d => pay7_apply x1 k d) (pay8_apply x0 x1 q k) (pay9_apply x0 q 0))
    (fun q k => pay12_mul_pay13 _ _ q k _ _ (fun d => pay2_apply x2 q d) (fun d => pay3_apply x3 k d))
    (fun q => pay4_apply x4 q 0) (fun k => pay5_apply x5 k 0)

/-- Lane 1 of what a grid point stores: its pairs' weights summed. -/
theorem tileOut_lane1 (x0 : Vec Ideal S1x128x512 .f32) (x1 : Vec Ideal S1x2048x512 .f32) (x2 : Vec Ideal S1x128x3 .f32)
    (x3 : Vec Ideal S1x2048x3 .f32) (x4 : Vec Ideal S1x128x1 .f32) (x5 : Vec Ideal S1x2048x1 .f32) :
    tileOut (F := Ideal) x0 x1 x2 x3 x4 x5 (ix3 (0 : Fin 1) (0 : Fin 1) (1 : Fin 128))
      = ∑ q : Fin 128, ∑ k : Fin 2048,
          Cert.Spec.pmask (x4 (ix3 (0 : Fin 1) q (0 : Fin 1))) (x5 (ix3 (0 : Fin 1) k (0 : Fin 1))) := by
  unfold tileOut
  exact pay1_lane1 _ _ _ _ _
    (fun q => x4 (ix3 (0 : Fin 1) q (0 : Fin 1))) (fun k => x5 (ix3 (0 : Fin 1) k (0 : Fin 1)))
    (fun q => pay4_apply x4 q 0) (fun k => pay5_apply x5 k 0)

end Cert.KernelIdeal.Tile

end
-- ==== Proof.Regroup.lean ====
/-
  Regrouping a sum over grid points: the grid point `t` of 128 is batch `t / 16` and query tile `t % 16`, tile `j` holds
  the rows `128 j … 128 j + 127` of its batch, so summing over the grid points, then over a tile's rows, is summing over
  the batches and all their rows.
-/
import Mathlib.Algebra.BigOperators.Fin
import Mathlib.Logic.Equiv.Fin.Basic

open scoped BigOperators

namespace Cert.Spec

/-- A sum over `Fin n`, `n = a * b`, of a function of the quotient and the remainder by `b` is the double sum. -/
theorem sum_div_mod {M : Type*} [AddCommMonoid M] {a b n : ℕ} (hn : n = a * b) (hb : 0 < b) (F : Fin a → Fin b → M) :
    ∑ t : Fin n, F ⟨t.val / b, by
        subst hn; exact Nat.div_lt_of_lt_mul (lt_of_lt_of_eq t.isLt (Nat.mul_comm a b))⟩ ⟨t.val % b, Nat.mod_lt _ hb⟩
      = ∑ i : Fin a, ∑ j : Fin b, F i j := by
  subst hn
  rw [← (finProdFinEquiv (m := a) (n := b)).sum_comp, Fintype.sum_prod_type]
  refine Finset.sum_congr rfl fun i _ => Finset.sum_congr rfl fun j _ => ?_
  have hv : (finProdFinEquiv (i, j) : Fin (a * b)).val = j.val + b * i.val := rfl
  refine congrArg₂ F (Fin.ext ?_) (Fin.ext ?_)
  · show (finProdFinEquiv (i, j) : Fin (a * b)).val / b = i.val
    rw [hv, Nat.add_mul_div_left _ _ hb, Nat.div_eq_of_lt j.isLt, Nat.zero_add]
  · show (finProdFinEquiv (i, j) : Fin (a * b)).val % b = j.val
    rw [hv, Nat.add_mul_mod_self_left, Nat.mod_eq_of_lt j.isLt]

/-- The grid's sums regrouped by batch and row. -/
theorem regroup {M : Type*} [AddCommMonoid M] (g : Fin 8 → Fin 2048 → Fin 2048 → M) :
    ∑ t : Fin 128, ∑ q : Fin 128, ∑ k : Fin 2048, g ⟨t.val / 16, by omega⟩ ⟨(t.val % 16) * 128 + q.val, by omega⟩ k
      = ∑ b : Fin 8, ∑ n : Fin 2048, ∑ m : Fin 2048, g b n m := by
  -- within one batch: the sixteen tiles' rows are the batch's rows
  have inner : ∀ b : Fin 8,
      ∑ j : Fin 16, ∑ q : Fin 128, ∑ k : Fin 2048, g b ⟨j.val * 128 + q.val, by omega⟩ k
        = ∑ n : Fin 2048, ∑ m : Fin 2048, g b n m := by
    intro b
    rw [← sum_div_mod (a := 16) (b := 128) (n := 2048) rfl (by omega)
      (fun j q => ∑ k : Fin 2048, g b ⟨j.val * 128 + q.val, by omega⟩ k)]
    refine Finset.sum_congr rfl fun n _ => ?_
    refine Finset.sum_congr rfl fun k _ => ?_
    exact congrArg (fun r => g b r k) (Fin.ext (Nat.div_add_mod' n.val 128))
  rw [← Finset.sum_congr rfl fun b _ => inner b]
  exact sum_div_mod (a := 8) (b := 16) (n := 128) rfl (by omega)
    (fun b j => ∑ q : Fin 128, ∑ k : Fin 2048, g b ⟨j.val * 128 + q.val, by omega⟩ k)

end Cert.Spec
-- ==== Proof.ValueI.lean ====
/-
  The kernel program's result is the specification: the output array's row t holds, in lanes 0 and 1, the summed
  pair losses and pair weights of grid point t — batch t / 16, query rows 128 (t mod 16) … + 127, against every key
  row of the batch —, the last host lines add the 128 rows up and divide, and the triple sums over points, query rows
  and key rows are the sums over batches and ordered pairs of rows.
-/
import proofs.«102639_j14474039787802_2_alg».proof.Proof.EntryI
import proofs.«102639_j14474039787802_2_alg».proof.Proof.OutI
import proofs.«102639_j14474039787802_2_alg».proof.Proof.TailI
import proofs.«102639_j14474039787802_2_alg».proof.Proof.TileValue
import proofs.«102639_j14474039787802_2_alg».proof.Proof.Regroup

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The loss of the ordered pair (n, k) of batch b, from the launch contents of the three arrays. -/
def gL (c : Dev nD) : Fin 8 → Fin 2048 → Fin 2048 → EReal := fun b n k =>
  Cert.Spec.ploss (fun d : Fin 512 => m ((c : Thread nD τ).loc main_arg0) (ix3 b n d)) (fun d : Fin 512 => m ((c : Thread nD τ).loc main_arg0) (ix3 b k d))
    (fun d : Fin 3 => m ((c : Thread nD τ).loc main_arg1) (ix3 b n d)) (fun d : Fin 3 => m ((c : Thread nD τ).loc main_arg1) (ix3 b k d))
    (m ((c : Thread nD τ).loc main_arg2) (ix2 b n)) (m ((c : Thread nD τ).loc main_arg2) (ix2 b k))
/-- Its weight. -/
def gM (c : Dev nD) : Fin 8 → Fin 2048 → Fin 2048 → EReal := fun b n k =>
  Cert.Spec.pmask (m ((c : Thread nD τ).loc main_arg2) (ix2 b n)) (m ((c : Thread nD τ).loc main_arg2) (ix2 b k))

theorem tN (t : Fin 128) : t.val < cfg0.N := by
  show t.val < grid0.N
  rw [N_0]; exact t.isLt

/-- Lane 0 of the output array's row t: the summed losses of point t's pairs. -/
theorem row0 (c : Dev nD) (t : Fin 128) :
    Gout (V1 m ρ) c (ix3 t (0 : Fin 1) (0 : Fin 128))
      = ∑ q : Fin 128, ∑ k : Fin 2048, gL m c ⟨t.val / 16, by omega⟩ ⟨t.val % 16 * 128 + q.val, by omega⟩ k := by
  rw [Gout_apply (V1 m ρ) c t 0 (tN t)]
  refine (Tile.tileOut_lane0 _ _ _ _ _ _).trans ?_
  refine Finset.sum_congr rfl fun q _ => Finset.sum_congr rfl fun k _ => ?_
  simp only [iblk_0, iblk_1, iblk_2, iblk_3, iblk_4, iblk_5, gL]
  rw [V1_arg0 m ρ c, V1_arg1 m ρ c, V1_v0_apply m ρ c, V1_v0_apply m ρ c]

/-- Lane 1: their summed weights. -/
theorem row1 (c : Dev nD) (t : Fin 128) :
    Gout (V1 m ρ) c (ix3 t (0 : Fin 1) (1 : Fin 128))
      = ∑ q : Fin 128, ∑ k : Fin 2048, gM m c ⟨t.val / 16, by omega⟩ ⟨t.val % 16 * 128 + q.val, by omega⟩ k := by
  rw [Gout_apply (V1 m ρ) c t 1 (tN t)]
  refine (Tile.tileOut_lane1 _ _ _ _ _ _).trans ?_
  refine Finset.sum_congr rfl fun q _ => Finset.sum_congr rfl fun k _ => ?_
  simp only [iblk_4, iblk_5, gM]
  rw [V1_v0_apply m ρ c, V1_v0_apply m ρ c]

/-- The result buffer after the run, as the specification of the three argument arrays. -/
theorem result_eq (c : Dev nD) (i : S_.Idx) :
    W3 m ρ c (Proc.devRef .tc main_v9) i
      = Cert.Spec.total (fun (b : Fin 8) (n : Fin 2048) (d : Fin 512) => m ((c : Thread nD τ).loc main_arg0) (ix3 b n d))
          (fun (b : Fin 8) (n : Fin 2048) (d : Fin 3) => m ((c : Thread nD τ).loc main_arg1) (ix3 b n d))
          (fun (b : Fin 8) (n : Fin 2048) => m ((c : Thread nD τ).loc main_arg2) (ix2 b n)) := by
  rw [show W3 m ρ c (Proc.devRef .tc main_v9) = Tail.tail (W2 m ρ c (Proc.devRef .tc main_v1)) from Tail.after_tail (W2 m ρ c)]
  rw [W2_out, final6, Tail.tail_apply]
  simp only [row0, row1]
  unfold Cert.Spec.total
  exact congrArg₂ Ideal.div (Cert.Spec.regroup (gL m c)) (congrArg (· + Cert.Spec.cEps8) (Cert.Spec.regroup (gM m c)))

end Cert.KernelIdeal.Fr

end
-- ==== Proof.RefValueE.lean ====
/-
  The reference program's embedding side, stage by stage at explicit coordinates.

  With e_n the n-th embedding row of a batch and ê_n = nrm e_n the row scaled by 1 / max(√(ssq e_n), ε): the scaled
  array's entry, the scaled rows' squared norm, their batched inner product, the clamped squared distance and the
  pair distance pdist ê_n ê_m.  Also the two index-sum facts used throughout: a sum over a rank-3 index set is the
  triple sum over its coordinates, and the two one-bit conversions on the extended reals.
-/
import proofs.«102639_j14474039787802_2_alg».proof.Proof.Gen.ReferenceIdeal.Read
import proofs.«102639_j14474039787802_2_alg».proof.Proof.Spec

noncomputable section

open scoped BigOperators

namespace Cert.RefSide

open Idealize.ShloMosaic Idealize.ShloMosaic.ValueIdx Cert.ReferenceIdeal Cert.ReferenceIdeal.Read Cert.Spec

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- On the extended reals a comparison of two floats is the order's. -/
theorem cmpf_eq (p : CmpFPredicate) (x y : Ideal .f32) : FloatOps.cmpf p x y = Ideal.cmp p x y := rfl
/-- A one-bit word read unsigned is the number 0 or 1. -/
theorem uitofp_eq (b : BitVec 1) : FloatOps.uitofp (F := Ideal) .f32 b = b2r b := rfl

local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))

variable (x0 : (⟨S8x2048x512, .f32⟩ : BufTy).Contents (Elt Ideal)) (x1 : (⟨S8x2048x3, .f32⟩ : BufTy).Contents (Elt Ideal)) (x2 : (⟨S8x2048, .f32⟩ : BufTy).Contents (Elt Ideal))

/-- The sum of squares of an embedding row (the norm's radicand), from the zero initial value. -/
theorem call0_v1_at (b : Fin 8) (n : Fin 2048) :
    val_main_call0_v1 (F := Ideal) x0 (ix2 b n) = ssq (fun k : Fin 512 => x0 (ix3 b n k)) := by
  rw [val_main_call0_v1_apply, val_main_call0_cst_apply, Ideal.ofBits_def]
  unfold ssq
  refine (congrArg₂ (· + ·) c0_eq (Finset.sum_congr rfl fun k _ => ?_)).trans (zero_add _)
  rw [val_main_call0_v0_apply, Ideal.mulf_def]
  have h : idx_main_call0_v1 (ix2 b n) k = ix3 b n k := by idx3
  rw [h]

/-- The divisor of a row: its norm kept above ε, the same for every entry of the row. -/
theorem v3_at (b : Fin 8) (n : Fin 2048) (d : Fin 512) :
    val_main_v3 (F := Ideal) x0 (ix3 b n d) = max (Ideal.sqrt (ssq (fun k : Fin 512 => x0 (ix3 b n k)))) cEps := by
  rw [val_main_v3_apply, val_main_v2_apply, val_main_v0_apply, val_main_call0_v2_apply, val_main_v1_apply,
    val_main_cst_apply, Ideal.ofBits_def, Ideal.maximumf_def, Ideal.hostUnary_sqrt_def]
  have h : idx_main_call0_v2 (idx_main_v3 (ix3 b n d)) = ix2 b n := by idx2
  rw [h, call0_v1_at]

/-- An entry of the scaled embedding array is the scaled row's entry. -/
theorem v4_at (b : Fin 8) (n : Fin 2048) (d : Fin 512) :
    val_main_v4 (F := Ideal) x0 (ix3 b n d) = nrm (fun k : Fin 512 => x0 (ix3 b n k)) d := by
  rw [val_main_v4_apply, Ideal.hostDivf_def, v3_at]
  rfl

/-- The scaled rows' sum of squares. -/
theorem v6_at (b : Fin 8) (n : Fin 2048) :
    val_main_v6 (F := Ideal) x0 (ix2 b n) = ssq (nrm (fun k : Fin 512 => x0 (ix3 b n k))) := by
  rw [val_main_v6_apply, val_main_cst_0_apply, Ideal.ofBits_def]
  unfold ssq
  refine (congrArg₂ (· + ·) c0_eq (Finset.sum_congr rfl fun k _ => ?_)).trans (zero_add _)
  rw [val_main_v5_apply, Ideal.mulf_def]
  have h : idx_main_v6 (ix2 b n) k = ix3 b n k := by idx3
  rw [h, v4_at]

/-- The first row's sum of squares, spread over the pair grid. -/
theorem v9_at (b : Fin 8) (n m : Fin 2048) :
    val_main_v9 (F := Ideal) x0 (ix3 b n m) = ssq (nrm (fun k : Fin 512 => x0 (ix3 b n k))) := by
  rw [val_main_v9_apply, val_main_v7_apply]
  have h : idx_main_v7 (idx_main_v9 (ix3 b n m)) = ix2 b n := by idx2
  rw [h, v6_at]

/-- The second row's sum of squares, spread over the pair grid. -/
theorem v10_at (b : Fin 8) (n m : Fin 2048) :
    val_main_v10 (F := Ideal) x0 (ix3 b n m) = ssq (nrm (fun k : Fin 512 => x0 (ix3 b m k))) := by
  rw [val_main_v10_apply, val_main_v8_apply]
  have h : idx_main_v8 (idx_main_v10 (ix3 b n m)) = ix2 b m := by idx2
  rw [h, v6_at]

/-- The batched contraction of the scaled array with itself is the inner product of the two scaled rows. -/
theorem v12_at (b : Fin 8) (n m : Fin 2048) :
    val_main_v12 (F := Ideal) x0 (ix3 b n m)
      = dot (nrm (fun k : Fin 512 => x0 (ix3 b n k))) (nrm (fun k : Fin 512 => x0 (ix3 b m k))) := by
  rw [val_main_v12_apply]
  unfold dot
  refine Finset.sum_congr rfl fun k _ => ?_
  have hl : lidx_main_v12 (ix3 b n m) k = ix3 b n k := by idx3
  have hr : ridx_main_v12 (ix3 b n m) k = ix3 b m k := by idx3
  rw [hl, hr, v4_at, v4_at]

/-- The clamped squared distance of the two scaled rows. -/
theorem v17_at (b : Fin 8) (n m : Fin 2048) :
    val_main_v17 (F := Ideal) x0 (ix3 b n m)
      = d2 (nrm (fun k : Fin 512 => x0 (ix3 b n k))) (nrm (fun k : Fin 512 => x0 (ix3 b m k))) := by
  rw [val_main_v17_apply, val_main_v15_apply, val_main_v11_apply, val_main_v14_apply, val_main_v13_apply,
    val_main_cst_1_apply, val_main_v16_apply, val_main_cst_2_apply, v9_at, v10_at, v12_at]
  rfl

/-- The pair distance of the two scaled rows. -/
theorem v25_at (b : Fin 8) (n m : Fin 2048) :
    val_main_v25 (F := Ideal) x0 (ix3 b n m)
      = pdist (nrm (fun k : Fin 512 => x0 (ix3 b n k))) (nrm (fun k : Fin 512 => x0 (ix3 b m k))) := by
  rw [val_main_v25_apply, val_main_v21_apply, val_main_v20_apply, val_main_v19_apply, val_main_v24_apply,
    val_main_v23_apply, val_main_v18_apply, val_main_cst_3_apply, val_main_v22_apply, val_main_cst_5_apply,
    val_main_call1_v1_apply, val_main_call1_v0_apply, val_main_cst_4_apply, v17_at]
  rfl

end Cert.RefSide

end
-- ==== Proof.RefValueC.lean ====
/-
  The reference program's coordinate side and its per-pair loss, stage by stage at explicit coordinates.

  With c_n the n-th coordinate row of a batch: the rows' squared norm, their batched inner product, the clamped
  squared distance, the pair distance pdist c_n c_m and the neighbour indicator [pdist c_n c_m < 10]; then the
  margin term max(pdist ê_n ê_m − 1, 0), the pair weight mask_n · mask_m and the pair loss.
-/
import proofs.«102639_j14474039787802_2_alg».proof.Proof.Gen.ReferenceIdeal.Read
import proofs.«102639_j14474039787802_2_alg».proof.Proof.Spec
import proofs.«102639_j14474039787802_2_alg».proof.Proof.RefValueE

noncomputable section

open scoped BigOperators

namespace Cert.RefSide

open Idealize.ShloMosaic Idealize.ShloMosaic.ValueIdx Cert.ReferenceIdeal Cert.ReferenceIdeal.Read Cert.Spec

local macro "idx3" : tactic =>
  `(tactic| exact funext fun a => Fin.ext (by match a with | ⟨0, _⟩ => rfl | ⟨1, _⟩ => rfl | ⟨2, _⟩ => rfl))
local macro "idx2" : tactic =>
  `(tactic| exact funext fun a => Fin.ext (by match a with | ⟨0, _⟩ => rfl | ⟨1, _⟩ => rfl))

variable (x0 : (⟨S8x2048x512, .f32⟩ : BufTy).Contents (Elt Ideal)) (x1 : (⟨S8x2048x3, .f32⟩ : BufTy).Contents (Elt Ideal)) (x2 : (⟨S8x2048, .f32⟩ : BufTy).Contents (Elt Ideal))

/-- The sum of squares of a coordinate row, from the zero initial value. -/
theorem v27_at (b : Fin 8) (n : Fin 2048) :
    val_main_v27 (F := Ideal) x1 (ix2 b n) = ssq (fun k : Fin 3 => x1 (ix3 b n k)) := by
  rw [val_main_v27_apply, val_main_cst_6_apply, Ideal.ofBits_def]
  unfold ssq
  refine (congrArg₂ (· + ·) c0_eq (Finset.sum_congr rfl fun k _ => ?_)).trans (zero_add _)
  rw [val_main_v26_apply, Ideal.mulf_def]
  have h : idx_main_v27 (ix2 b n) k = ix3 b n k := by idx3
  rw [h]

/-- The first row's sum of squares, spread over the pair grid. -/
theorem v30_at (b : Fin 8) (n m : Fin 2048) :
    val_main_v30 (F := Ideal) x1 (ix3 b n m) = ssq (fun k : Fin 3 => x1 (ix3 b n k)) := by
  rw [val_main_v30_apply, val_main_v28_apply]
  have h : idx_main_v28 (idx_main_v30 (ix3 b n m)) = ix2 b n := by idx2
  rw [h, v27_at]

/-- The second row's sum of squares, spread over the pair grid. -/
theorem v31_at (b : Fin 8) (n m : Fin 2048) :
    val_main_v31 (F := Ideal) x1 (ix3 b n m) = ssq (fun k : Fin 3 => x1 (ix3 b m k)) := by
  rw [val_main_v31_apply, val_main_v29_apply]
  have h : idx_main_v29 (idx_main_v31 (ix3 b n m)) = ix2 b m := by idx2
  rw [h, v27_at]

/-- The batched contraction of the coordinate array with itself is the inner product of the two rows. -/
theorem v33_at (b : Fin 8) (n m : Fin 2048) :
    val_main_v33 (F := Ideal) x1 (ix3 b n m)
      = dot (fun k : Fin 3 => x1 (ix3 b n k)) (fun k : Fin 3 => x1 (ix3 b m k)) := by
  rw [val_main_v33_apply]
  unfold dot
  refine Finset.sum_congr rfl fun k _ => ?_
  have hl : lidx_main_v33 (ix3 b n m) k = ix3 b n k := by idx3
  have hr : ridx_main_v33 (ix3 b n m) k = ix3 b m k := by idx3
  rw [hl, hr]

/-- The clamped squared distance of the two coordinate rows. -/
theorem v38_at (b : Fin 8) (n m : Fin 2048) :
    val_main_v38 (F := Ideal) x1 (ix3 b n m)
      = d2 (fun k : Fin 3 => x1 (ix3 b n k)) (fun k : Fin 3 => x1 (ix3 b m k)) := by
  rw [val_main_v38_apply, val_main_v36_apply, val_main_v32_apply, val_main_v35_apply, val_main_v34_apply,
    val_main_cst_7_apply, val_main_v37_apply, val_main_cst_8_apply, v30_at, v31_at, v33_at]
  rfl

/-- The pair distance of the two coordinate rows. -/
theorem v46_at (b : Fin 8) (n m : Fin 2048) :
    val_main_v46 (F := Ideal) x1 (ix3 b n m)
      = pdist (fun k : Fin 3 => x1 (ix3 b n k)) (fun k : Fin 3 => x1 (ix3 b m k)) := by
  rw [val_main_v46_apply, val_main_v42_apply, val_main_v41_apply, val_main_v40_apply, val_main_v45_apply,
    val_main_v44_apply, val_main_v39_apply, val_main_cst_9_apply, val_main_v43_apply, val_main_cst_11_apply,
    val_main_call2_v1_apply, val_main_call2_v0_apply, val_main_cst_10_apply, v38_at]
  rfl

/-- The neighbour indicator: the coordinate distance is below 10. -/
theorem v49_at (b : Fin 8) (n m : Fin 2048) :
    val_main_v49 (F := Ideal) x1 (ix3 b n m)
      = b2r (Ideal.cmp .olt (pdist (fun k : Fin 3 => x1 (ix3 b n k)) (fun k : Fin 3 => x1 (ix3 b m k))) c10) := by
  rw [val_main_v49_apply, val_main_v48_apply, val_main_v47_apply, val_main_cst_12_apply, v46_at]
  rfl

/-- The margin term: the embedding distance above 1, clamped at zero. -/
theorem v52_at (b : Fin 8) (n m : Fin 2048) :
    val_main_v52 (F := Ideal) x0 (ix3 b n m)
      = max (pdist (nrm (fun k : Fin 512 => x0 (ix3 b n k))) (nrm (fun k : Fin 512 => x0 (ix3 b m k))) - c1) c0 := by
  rw [val_main_v52_apply, val_main_v51_apply, val_main_v50_apply, val_main_cst_13_apply, val_main_call3_v0_apply,
    val_main_call3_cst_apply, v25_at]
  rfl

/-- The pair weight: the product of the two rows' mask entries (the program multiplies the second row's first). -/
theorem v58_at (b : Fin 8) (n m : Fin 2048) :
    val_main_v58 (F := Ideal) x2 (ix3 b n m) = pmask (x2 (ix2 b n)) (x2 (ix2 b m)) := by
  rw [val_main_v58_apply, val_main_v56_apply, val_main_v54_apply, val_main_v57_apply, val_main_v55_apply,
    Ideal.mulf_def]
  have h1 : idx_main_v54 (idx_main_v56 (ix3 b n m)) = ix2 b m := by idx2
  have h2 : idx_main_v55 (idx_main_v57 (ix3 b n m)) = ix2 b n := by idx2
  rw [h1, h2]
  exact mul_comm _ _

/-- The pair loss. -/
theorem v59_at (b : Fin 8) (n m : Fin 2048) :
    val_main_v59 (F := Ideal) x0 x1 x2 (ix3 b n m)
      = ploss (fun k : Fin 512 => x0 (ix3 b n k)) (fun k : Fin 512 => x0 (ix3 b m k))
          (fun k : Fin 3 => x1 (ix3 b n k)) (fun k : Fin 3 => x1 (ix3 b m k)) (x2 (ix2 b n)) (x2 (ix2 b m)) := by
  rw [val_main_v59_apply, val_main_v53_apply, v49_at, v52_at, v58_at]
  rfl

end Cert.RefSide

end
-- ==== Proof.RefValue.lean ====
/-
  The reference program's result is the specification's loss.

  The two total sums run over the rank-3 pair grid from the zero initial value; as triple sums over batch and the
  two row coordinates they are the summed pair weights and the summed pair losses, and the result is their quotient
  with ε₈ added to the weights.
-/
import proofs.«102639_j14474039787802_2_alg».proof.Proof.Gen.ReferenceIdeal.Read
import proofs.«102639_j14474039787802_2_alg».proof.Proof.Spec
import proofs.«102639_j14474039787802_2_alg».proof.Proof.RefValueE
import proofs.«102639_j14474039787802_2_alg».proof.Proof.RefValueC

noncomputable section

open scoped BigOperators

namespace Cert.RefSide

open Idealize.ShloMosaic Idealize.ShloMosaic.ValueIdx Cert.ReferenceIdeal Cert.ReferenceIdeal.Read Cert.Spec

variable (x0 : (⟨S8x2048x512, .f32⟩ : BufTy).Contents (Elt Ideal)) (x1 : (⟨S8x2048x3, .f32⟩ : BufTy).Contents (Elt Ideal)) (x2 : (⟨S8x2048, .f32⟩ : BufTy).Contents (Elt Ideal))

/-- The summed pair weights. -/
theorem v60_at (i : S_.Idx) :
    val_main_v60 (F := Ideal) x2 i
      = ∑ b : Fin 8, ∑ n : Fin 2048, ∑ m : Fin 2048, pmask (x2 (ix2 b n)) (x2 (ix2 b m)) := by
  rw [val_main_v60_apply, val_main_cst_14_apply, Ideal.ofBits_def, sum_idx3]
  refine (congrArg₂ (· + ·) c0_eq ?_).trans (zero_add _)
  refine Finset.sum_congr rfl fun b _ => Finset.sum_congr rfl fun n _ => Finset.sum_congr rfl fun m _ => ?_
  exact v58_at x2 b n m

/-- The summed pair losses. -/
theorem v61_at (i : S_.Idx) :
    val_main_v61 (F := Ideal) x0 x1 x2 i
      = ∑ b : Fin 8, ∑ n : Fin 2048, ∑ m : Fin 2048,
          ploss (fun k : Fin 512 => x0 (ix3 b n k)) (fun k : Fin 512 => x0 (ix3 b m k))
            (fun k : Fin 3 => x1 (ix3 b n k)) (fun k : Fin 3 => x1 (ix3 b m k)) (x2 (ix2 b n)) (x2 (ix2 b m)) := by
  rw [val_main_v61_apply, val_main_cst_15_apply, Ideal.ofBits_def, sum_idx3]
  refine (congrArg₂ (· + ·) c0_eq ?_).trans (zero_add _)
  refine Finset.sum_congr rfl fun b _ => Finset.sum_congr rfl fun n _ => Finset.sum_congr rfl fun m _ => ?_
  exact v59_at x0 x1 x2 b n m

/-- The reference's result: the summed pair losses over the summed pair weights plus ε₈. -/
theorem ref_total (i : S_.Idx) :
    Cert.ReferenceIdeal.Read.val_main_v63 (F := Ideal) x0 x1 x2 i
      = Cert.Spec.total (fun (b : Fin 8) (n : Fin 2048) (d : Fin 512) => x0 (ix3 b n d)) (fun (b : Fin 8) (n : Fin 2048) (d : Fin 3) => x1 (ix3 b n d)) (fun (b : Fin 8) (n : Fin 2048) => x2 (ix2 b n)) := by
  rw [val_main_v63_apply, val_main_v62_apply, val_main_cst_16_apply, v61_at, v60_at, Ideal.hostDivf_def,
    Ideal.addf_def, Ideal.ofBits_def]
  rfl

end Cert.RefSide

end
-- ==== Proof.lean ====
/-
  The certificate of the pairwise-distance loss kernel against its jnp reference, on the extended reals.

  Both programs compute (Σ ploss) / (Σ pmask + ε₈) of Proof/Spec.lean: the reference over whole [8,2048,2048] arrays
  (Proof/RefValue*.lean, over the generated run and stage lemmas), the kernel tile by tile — each grid point stores
  its tile's two partial sums (Proof/Tile*.lean), the pipeline writes them to row t of the output array
  (Proof/Frame*.lean, Proof/OutI.lean), and the host lines after it add the rows and divide (Proof/TailI.lean).
  The sums agree because addition on the extended reals is commutative and associative (Proof/Regroup.lean); no
  finiteness is used, so the precondition is never opened. Each input array is read through two windows (a query
  tile and the whole key side of a batch), which hold complementary halves of its share (Proof/FrameC*.lean).
  The ideal pass rewrote nothing, so the preservation conjunct is trivial.
-/
import proofs.«102639_j14474039787802_2_alg».proof.Defs
import proofs.«102639_j14474039787802_2_alg».proof.Proof.Gen.Kernel
import proofs.«102639_j14474039787802_2_alg».proof.Proof.Gen.KernelIdeal
import proofs.«102639_j14474039787802_2_alg».proof.Proof.Gen.ReferenceIdeal
import proofs.«102639_j14474039787802_2_alg».proof.Proof.Gen.Pre_finite_inputs
import proofs.«102639_j14474039787802_2_alg».proof.Proof.FrameDK
import proofs.«102639_j14474039787802_2_alg».proof.Proof.ValueI
import proofs.«102639_j14474039787802_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : @Cert.frame_Kernel Cert.Kernel.Gen.facts Cert.Pre_finite_inputs.Gen.facts :=
  fun m ρ _ => Cert.Kernel.Fr.frame m ρ
theorem frame_ki : @Cert.frame_KernelIdeal Cert.KernelIdeal.Gen.facts Cert.Pre_finite_inputs.Gen.facts :=
  fun m ρ _ => Cert.KernelIdeal.Fr.frame m ρ
/-- The reference's frame is its generated run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both runs end with the result buffer at Spec.total of the argument arrays, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => fun _ => Cert.Spec.total
      (fun (b : Fin 8) (n : Fin 2048) (d : Fin 512) => m ((c.tc : Thread Cert.KernelIdeal.nD Cert.KernelIdeal.τ).loc Cert.KernelIdeal.main_arg0) (ix3 b n d))
      (fun (b : Fin 8) (n : Fin 2048) (d : Fin 3) => m ((c.tc : Thread Cert.KernelIdeal.nD Cert.KernelIdeal.τ).loc Cert.KernelIdeal.main_arg1) (ix3 b n d))
      (fun (b : Fin 8) (n : Fin 2048) => m ((c.tc : Thread Cert.KernelIdeal.nD Cert.KernelIdeal.τ).loc Cert.KernelIdeal.main_arg2) (ix2 b n)), ?_, ?_⟩
  · refine (θ_run Cert.KernelIdeal.defs _ _).mono (fun r h c => ⟨?_, ?_, ?_, ?_⟩) (Cert.KernelIdeal.Fr.run_all m ρ)
    · exact (h c _ (Cert.KernelIdeal.Fr.mem_uc Cert.KernelIdeal.main_v9 (by decide))).trans (funext fun i => Cert.KernelIdeal.Fr.result_eq m ρ c i)
    · exact (h c _ (Cert.KernelIdeal.Fr.mem_uc Cert.KernelIdeal.main_arg0 (by decide))).trans (Cert.KernelIdeal.Fr.W3_arg m ρ c _ (.inl rfl))
    · exact (h c _ (Cert.KernelIdeal.Fr.mem_uc Cert.KernelIdeal.main_arg1 (by decide))).trans (Cert.KernelIdeal.Fr.W3_arg m ρ c _ (.inr (.inl rfl)))
    · exact (h c _ (Cert.KernelIdeal.Fr.mem_uc Cert.KernelIdeal.main_arg2 (by decide))).trans (Cert.KernelIdeal.Fr.W3_arg m ρ c _ (.inr (.inr rfl)))
  · refine (θ_run Cert.ReferenceIdeal.defs _ _).mono (fun _ h c => ⟨?_, (h c).2⟩) (Cert.ReferenceIdeal.Value.run (F := Ideal) m' ρ')
    rw [(h c).1, Cert.ReferenceIdeal.Read.val_main_v63_eq, (hagree c).1, (hagree c).2.1, (hagree c).2.2]
    exact funext fun i => Cert.RefSide.ref_total _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
